-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8192x1024 .f32) (main_arg1 : FVec F S1024x1024 .f32) (main_arg2 : FVec F S1024 .f32) (main_arg3 : FVec F S1024x1024 .f32) (main_arg4 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S8192x8192 : Shape := ⟨2, ![8192, 8192]⟩

abbrev nBuf : Space → Nat
  | .hbm => 12
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S8192x1024, .bf16⟩
  | .hbm, ⟨10, _⟩ => ⟨S8192x1024, .bf16⟩
  | .hbm, ⟨11, _⟩ => ⟨S8192x8192, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def k1_cond1 (i : grid1.Coords) : BitVec 1 :=
  let arg1 : BitVec 32 := BitVec.ofNat 32 (i 1).val
  let c1024_i32_0 : BitVec 32 := 1024#32
  let v1 : BitVec 32 := Scalar.muli arg1 c1024_i32_0
  let arg0 : BitVec 32 := BitVec.ofNat 32 (i 0).val
  let c1024_i32 : BitVec 32 := 1024#32
  let v0 : BitVec 32 := Scalar.muli arg0 c1024_i32
  let c1024_i32_1 : BitVec 32 := 1024#32
  let v2 : BitVec 32 := Scalar.addi v0 c1024_i32_1
  let c1_i32 : BitVec 32 := 1#32
  let v3 : BitVec 32 := Scalar.subi v2 c1_i32
  let v4 : BitVec 1 := Scalar.cmpi .sgt v1 v3
  let v5 : BitVec 32 := Scalar.extui v4
  let c0_i32 : BitVec 32 := 0#32
  let v6 : BitVec 1 := Scalar.cmpi .ne v5 c0_i32
  v6

def k1_cond2 (i : grid1.Coords) : BitVec 1 :=
  let arg1 : BitVec 32 := BitVec.ofNat 32 (i 1).val
  let c1024_i32_0 : BitVec 32 := 1024#32
  let v1 : BitVec 32 := Scalar.muli arg1 c1024_i32_0
  let arg0 : BitVec 32 := BitVec.ofNat 32 (i 0).val
  let c1024_i32 : BitVec 32 := 1024#32
  let v0 : BitVec 32 := Scalar.muli arg0 c1024_i32
  let c1024_i32_1 : BitVec 32 := 1024#32
  let v2 : BitVec 32 := Scalar.addi v0 c1024_i32_1
  let c1_i32 : BitVec 32 := 1#32
  let v3 : BitVec 32 := Scalar.subi v2 c1_i32
  let v4 : BitVec 1 := Scalar.cmpi .sgt v1 v3
  let v_true : BitVec 1 := 1#1
  let v7 : BitVec 1 := Scalar.xori v4 v_true
  let v8 : BitVec 32 := Scalar.extui v7
  let c0_i32_2 : BitVec 32 := 0#32
  let v9 : BitVec 1 := Scalar.cmpi .ne v8 c0_i32_2
  v9

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  transposes_S1024x1024_S1024x1024_1_0 : S1024x1024.Transposes [1, 0] S1024x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  iota_S1024x1024_d0_w32 : S1024x1024.Iotas .tc 32 [0]
  iota_S1024x1024_d1_w32 : S1024x1024.Iotas .tc 32 [1]
  dot_S1024x1024_S1024x1024_S1024x1024_1_0_0_1_n_n_wf : DotDims.WF S1024x1024 S1024x1024 S1024x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x1024.size a
  hwx0_5 : ∀ i : grid0.Coords, EltTy.bits .bf16 = 32 ∨ (Rect.block (s := S8192x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S8192x1024.size a
  hwx0_6 : ∀ i : grid0.Coords, EltTy.bits .bf16 = 32 ∨ (Rect.block (s := S8192x1024) S1024x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .bf16 = 32 ∨ (Rect.block (s := S8192x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S1024x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v4_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond1 i == 1#1) && !(k1_cond2 i == 1#1) | ⟨_ + 3, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S1024x8192 : Shape := ⟨2, ![1024, 8192]⟩
abbrev S8192x8192 : Shape := ⟨2, ![8192, 8192]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S1024x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1024x8192, .f32⟩
  | .hbm, ⟨20, _⟩ => ⟨S8192x8192, .f32⟩
  | .hbm, ⟨21, _⟩ => ⟨S_, .i1⟩
  | .hbm, ⟨22, _⟩ => ⟨S8192x8192, .i1⟩
  | .hbm, ⟨23, _⟩ => ⟨S8192x8192, .i32⟩
  | .hbm, ⟨24, _⟩ => ⟨S_, .i32⟩
  | .hbm, ⟨25, _⟩ => ⟨S8192x8192, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S_, .i1⟩
  | .hbm, ⟨30, _⟩ => ⟨S8192x8192, .i1⟩
  | .hbm, ⟨31, _⟩ => ⟨S8192x8192, .i1⟩
  | .hbm, ⟨32, _⟩ => ⟨S_, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_0 : Ref sig .tc := ⟨.hbm, 29, rfl⟩
abbrev main_call0_v5 : Ref sig .tc := ⟨.hbm, 30, rfl⟩
abbrev main_v16 : Ref sig .tc := ⟨.hbm, 31, rfl⟩
abbrev main_cst_0 : Ref sig .tc := ⟨.hbm, 32, rfl⟩
abbrev main_cst_1 : Ref sig .tc := ⟨.hbm, 33, rfl⟩
abbrev main_call1_v0 : Ref sig .tc := ⟨.hbm, 34, rfl⟩
abbrev main_call1_v1 : Ref sig .tc := ⟨.hbm, 35, rfl⟩
abbrev main_v17 : Ref sig .tc := ⟨.hbm, 36, rfl⟩
abbrev main_v18 : Ref sig .tc := ⟨.hbm, 37, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  transposes_S8192x1024_S1024x8192_1_0 : S8192x1024.Transposes [1, 0] S1024x8192
  bcast_S_S8192x8192 : S_.BroadcastsInDim S8192x8192 (![] : Fin 0 → Fin S8192x8192.rank)
  dot_S8192x1024_S1024x1024_S8192x1024_1_0_0_1_n_n_wf : DotDims.WF S8192x1024 S1024x1024 S8192x1024 [1] [0] [0] [1] [] []
  dot_S8192x1024_S1024x8192_S8192x8192_1_0_0_1_n_n_wf : DotDims.WF S8192x1024 S1024x8192 S8192x8192 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf

class Facts : Prop extends Facts₀ where

variable [Facts]
-- ==== Proof.KRegion0.lean ====
/-
  The projection call (the first of the program's two kernel calls), on one core, from ANY contents `V` of the
  core's buffers at its entry.

  The call walks eight row blocks of the mention matrix. At block `t` its body is handed rows
  `1024 t … 1024 t + 1023` of the mentions (window 0), the two transposed weight matrices whole (windows 1, 3) and the
  two bias rows (windows 2, 4); it stores one whole 1024 × 1024 block into each of its two outputs (windows 5, 6):
  the scaled query projection `(x · Wqᵀ + bq) · 2⁻⁵` and the key projection `x · Wkᵀ + bk` of those rows, and
  every block is written back. Nothing is carried from one block to the next.

  Stated here, at any float instance: what each input window's buffer holds when the body runs (its block of the
  entry contents, fetched at that point or kept from an earlier one), what the body leaves in the two output
  buffers as a pure term of those blocks, the body's triple, and the per-point obligation of the pipeline rule.
-/
import proofs.«144558_j63737314673218_1_alg».proof.Proof.Gen.Kernel.Launch
import proofs.«144558_j63737314673218_1_alg».proof.Proof.Gen.Kernel.Skeleton
import proofs.«144558_j63737314673218_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds the window's block at every point, fetched there or not: where it is
    not fetched the block index has not moved since the last fetch and the body left the buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and each store is of a whole buffer -/

abbrev rSq : Rect S1024x1024 := Rect.unit (s := S1024x1024) ![0, 0] S1024x1024.size inb_S1024x1024_S1024x1024_0_0
abbrev rRow : Rect S1x1024 := Rect.unit (s := S1x1024) ![0, 0] S1x1024.size inb_S1x1024_S1x1024_0_0

/-! ## What the body leaves in the two output buffers -/

/-- The query output's buffer after the body: its one store, of the scaled projection of the mention block `x` by the
    weight block `wq` with the bias row `bq`. -/
def out0_5 (x wq : Vec F S1024x1024 .f32) (bq : Vec F S1x1024 .f32) : Vec F S1024x1024 .bf16 :=
  View.canon [⟨rSq, k0_pay2 (View.ld x rSq) (View.ld wq rSq) (View.ld bq rRow)⟩]
/-- The key output's buffer after the body: its one store, of the projection of `x` by `wk` with the bias row `bk`. -/
def out0_6 (x wk : Vec F S1024x1024 .f32) (bk : Vec F S1x1024 .f32) : Vec F S1024x1024 .bf16 :=
  View.canon [⟨rSq, k0_pay3 (View.ld x rSq) (View.ld wk rSq) (View.ld bk rRow)⟩]

/-- One store of the whole buffer covers it. -/
theorem cover0 (p0 : Vec F S1024x1024 .bf16) (y : S1024x1024.Idx) :
    ∃ pc ∈ ([⟨rSq, p0⟩] : List (View.Piece (Elt F) S1024x1024 .bf16)), y ∈ pc.1.set :=
  View.cover_of_tiled [⟨rSq, p0⟩] S1024x1024.size (by rfl) y

/-! ## The body's triple -/

set_option maxHeartbeats 2000000 in
/-- On whole staging buffers — the five inputs' at contents `x`, `wq`, `bq`, `wk`, `bk`, the two outputs' at
    anything — the body runs to its end, leaves the inputs' as they were and the outputs' at `out0_5`, `out0_6`
    of the inputs'. -/
theorem sound_kernel0 (c : Dev nD) (E : Set ℕ) (i : grid0.Coords)
    (arg1 : Memref sig .tc .vmem S1024x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .bf16) (harg7 : arg7.IsWhole)
    (x wq : Vec F S1024x1024 .f32) (bq : Vec F S1x1024 .f32) (wk : Vec F S1024x1024 .f32) (bk : Vec F S1x1024 .f32) (K : PUnit → sProp 𝕄) :
    iprop(owns (c : Thread nD τ) arg1 fullShare x ∗ owns (c : Thread nD τ) arg2 fullShare wq ∗ owns (c : Thread nD τ) arg3 fullShare bq
        ∗ owns (c : Thread nD τ) arg4 fullShare wk ∗ owns (c : Thread nD τ) arg5 fullShare bk
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare wq ∗ owns (c : Thread nD τ) arg3 fullShare bq
            ∗ owns (c : Thread nD τ) arg4 fullShare wk ∗ owns (c : Thread nD τ) arg5 fullShare bk
            ∗ owns (c : Thread nD τ) arg6 fullShare (out0_5 x wq bq) ∗ owns (c : Thread nD τ) arg7 fullShare (out0_6 x wk bk)) -∗ K ⟨⟩))
      ⊢ wp frame (wpE (defs₀ (F := F)) Variants.none c none) E (cc0__lambda_ i arg1 harg1 arg2 harg2 arg3 harg3 arg4 harg4 arg5 harg5 arg6 harg6 arg7 harg7) K := by
  simp only [cc0__lambda__eq_skeleton]; unfold cc0__lambda__skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The call's proof data -/

/-- The arrays as the call finds them; after the body at point `t` each input's buffer at its block and each output's
    at `out0_5`, `out0_6` of the input blocks; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) := by dsimp only [dat0]
theorem after0_6 (c : Dev nD) (t : Fin cfg0.N) :
    (dat0 V c).after 6 t = out0_6 (iblk0 V c 0 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.KRegion1.lean ====
/-
  The attention call (the second of the program's two kernel calls), on one core, from ANY contents `V` of the core's
  buffers at its entry.

  The call walks the 8 × 8 grid of 1024 × 1024 tiles of the score matrix, tile `(qi, kj)` at point `8 qi + kj`. Its body
  is handed query rows `1024 qi …` (window 0) and key rows `1024 kj …` (window 1) and stores one whole tile into the
  output (window 2), which is written back at every point. Which store runs is decided by the tile alone:
    * a tile strictly above the diagonal (`1024 kj > 1024 qi + 1023`) is filled with −∞;
    * any other tile gets the products `q · kᵀ`, with −∞ where the column index exceeds the row index.
  The two conditions are complementary over the grid, so exactly one store runs at each point.

  Stated here, at any float instance: what the input windows' buffers hold when the body runs, what the body leaves in
  the output's buffer in each case, the body's triple in each case, and the per-point obligation of the pipeline rule.
-/
import proofs.«144558_j63737314673218_1_alg».proof.Proof.Gen.Kernel.Launch
import proofs.«144558_j63737314673218_1_alg».proof.Proof.Gen.Kernel.Skeleton
import proofs.«144558_j63737314673218_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions -/

/-- At every point of the grid exactly one of the body's two conditions holds: the second is the first negated. -/
theorem cond_compl : ∀ t : Fin cfg1.N, k1_cond1 (grid1.coords t) = 1#1 ↔ ¬ k1_cond2 (grid1.coords t) = 1#1 :=
  (by decide +kernel : ∀ t : Fin grid1.N, k1_cond1 (grid1.coords t) = 1#1 ↔ ¬ k1_cond2 (grid1.coords t) = 1#1)

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds the window's block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each load and each store is of a whole buffer -/

abbrev rTile : Rect S1024x1024 := Rect.unit (s := S1024x1024) ![0, 0] S1024x1024.size inb_S1024x1024_S1024x1024_0_0

/-! ## What the body leaves in the output's buffer -/

/-- The output tile after the body at grid coordinates `i`, from the query block `q` and the key block `k`: all −∞ on a
    tile strictly above the diagonal, the masked products otherwise. -/
def out1_2 (i : grid1.Coords) (q k : Vec F S1024x1024 .bf16) : Vec F S1024x1024 .f32 :=
  if k1_cond1 i = 1#1 then View.canon [⟨rTile, k1_pay1 (F := F)⟩]
  else View.canon [⟨rTile, k1_pay2 i (View.ld q rTile) (View.ld k rTile)⟩]

/-- One store of the whole buffer covers it. -/
theorem cover1 (p0 : Vec F S1024x1024 .f32) (y : S1024x1024.Idx) :
    ∃ pc ∈ ([⟨rTile, p0⟩] : List (View.Piece (Elt F) S1024x1024 .f32)), y ∈ pc.1.set :=
  View.cover_of_tiled [⟨rTile, p0⟩] S1024x1024.size (by rfl) y

/-! ## The body's triple, case by case -/

set_option maxHeartbeats 2000000 in
/-- A tile strictly above the diagonal: the first store runs, the second does not. -/
theorem sound_kernel1_above (c : Dev nD) (E : Set ℕ) (i : grid1.Coords) (h1 : k1_cond1 i = 1#1) (h2 : ¬ k1_cond2 i = 1#1)
    (arg2 : Memref sig .tc .vmem S1024x1024 .bf16) (harg2 : arg2.IsWhole) (arg3 : Memref sig .tc .vmem S1024x1024 .bf16) (harg3 : arg3.IsWhole)
    (arg4 : Memref sig .tc .vmem S1024x1024 .f32) (harg4 : arg4.IsWhole)
    (q k : Vec F S1024x1024 .bf16) (K : PUnit → sProp 𝕄) :
    iprop(owns (c : Thread nD τ) arg2 fullShare q ∗ owns (c : Thread nD τ) arg3 fullShare k ∗ (∃ d, owns (c : Thread nD τ) arg4 fullShare d)
        ∗ (iprop(owns (c : Thread nD τ) arg2 fullShare q ∗ owns (c : Thread nD τ) arg3 fullShare k
            ∗ owns (c : Thread nD τ) arg4 fullShare (out1_2 i q k)) -∗ K ⟨⟩))
      ⊢ wp frame (wpE (defs₀ (F := F)) Variants.none c none) E (cc1__lambda_ i arg2 harg2 arg3 harg3 arg4 harg4) K := by
  simp only [cc1__lambda__eq_skeleton]; unfold cc1__lambda__skel
  unfold out1_2; rw [if_pos h1]
  unfold owns
  iintro ⟨⟨%f2, %hf2, H2⟩, ⟨%f3, %hf3, H3⟩, ⟨%d4, %f4, -, H4⟩, Hk⟩
  subst hf2; subst hf3
  sl_exec (disch := first | exact h1 | exact h2)
  sl_step
  iapply Hk
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

set_option maxHeartbeats 2000000 in
/-- A tile on or below the diagonal: the first store does not run, the second does. -/
theorem sound_kernel1_below (c : Dev nD) (E : Set ℕ) (i : grid1.Coords) (h1 : ¬ k1_cond1 i = 1#1) (h2 : k1_cond2 i = 1#1)
    (arg2 : Memref sig .tc .vmem S1024x1024 .bf16) (harg2 : arg2.IsWhole) (arg3 : Memref sig .tc .vmem S1024x1024 .bf16) (harg3 : arg3.IsWhole)
    (arg4 : Memref sig .tc .vmem S1024x1024 .f32) (harg4 : arg4.IsWhole)
    (q k : Vec F S1024x1024 .bf16) (K : PUnit → sProp 𝕄) :
    iprop(owns (c : Thread nD τ) arg2 fullShare q ∗ owns (c : Thread nD τ) arg3 fullShare k ∗ (∃ d, owns (c : Thread nD τ) arg4 fullShare d)
        ∗ (iprop(owns (c : Thread nD τ) arg2 fullShare q ∗ owns (c : Thread nD τ) arg3 fullShare k
            ∗ owns (c : Thread nD τ) arg4 fullShare (out1_2 i q k)) -∗ K ⟨⟩))
      ⊢ wp frame (wpE (defs₀ (F := F)) Variants.none c none) E (cc1__lambda_ i arg2 harg2 arg3 harg3 arg4 harg4) K := by
  simp only [cc1__lambda__eq_skeleton]; unfold cc1__lambda__skel
  unfold out1_2; rw [if_neg h1]
  unfold owns
  iintro ⟨⟨%f2, %hf2, H2⟩, ⟨%f3, %hf3, H3⟩, ⟨%d4, %f4, -, H4⟩, Hk⟩
  subst hf2; subst hf3
  sl_exec (disch := first | exact h1 | exact h2)
  sl_step
  iapply Hk
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

/-- The body's triple at any point of the grid. -/
theorem sound_kernel1 (c : Dev nD) (E : Set ℕ) (t : Fin cfg1.N)
    (arg2 : Memref sig .tc .vmem S1024x1024 .bf16) (harg2 : arg2.IsWhole) (arg3 : Memref sig .tc .vmem S1024x1024 .bf16) (harg3 : arg3.IsWhole)
    (arg4 : Memref sig .tc .vmem S1024x1024 .f32) (harg4 : arg4.IsWhole)
    (q k : Vec F S1024x1024 .bf16) (K : PUnit → sProp 𝕄) :
    iprop(owns (c : Thread nD τ) arg2 fullShare q ∗ owns (c : Thread nD τ) arg3 fullShare k ∗ (∃ d, owns (c : Thread nD τ) arg4 fullShare d)
        ∗ (iprop(owns (c : Thread nD τ) arg2 fullShare q ∗ owns (c : Thread nD τ) arg3 fullShare k
            ∗ owns (c : Thread nD τ) arg4 fullShare (out1_2 (grid1.coords t) q k)) -∗ K ⟨⟩))
      ⊢ wp frame (wpE (defs₀ (F := F)) Variants.none c none) E (cc1__lambda_ (grid1.coords t) arg2 harg2 arg3 harg3 arg4 harg4) K := by
  by_cases h1 : k1_cond1 (grid1.coords t) = 1#1
  · exact sound_kernel1_above c E _ h1 ((cond_compl t).mp h1) arg2 harg2 arg3 harg3 arg4 harg4 q k K
  · exact sound_kernel1_below c E _ h1 (Classical.not_not.mp (fun h2 => h1 ((cond_compl t).mpr h2))) arg2 harg2 arg3 harg3 arg4 harg4 q k K

/-! ## The call's proof data -/

/-- The arrays as the call finds them; after the body at point `t` each input's buffer at its block and the output's at
    `out1_2` of the input blocks; the invariant the scoped rest and the generator register, untouched; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (grid1.coords t) (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (grid1.coords t) (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The output's block is written back at every point, so the rule asks of its buffer what the body stored there,
    whether or not the configuration counts the point as one where the body stores nothing. -/
theorem leaves1_2 (c : Dev nD) (t : Fin cfg1.N) :
    (dat1 V c).leavesExact 2 t = owns (c : Thread nD τ) (st1_2 t) fullShare ((dat1 V c).after 2 t) := by
  unfold Dat.leavesExact
  rw [flush1_2 t]
  cases cfg1.idle 2 (cfg1.grid.coords t) <;> rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    show (dat1 V c).leavesExact 0 t = owns (c : Thread nD τ) (st1_0 t) fullShare ((dat1 V c).after 0 t) from rfl,
    show (dat1 V c).leavesExact 1 t = owns (c : Thread nD τ) (st1_1 t) fullShare ((dat1 V c).after 1 t) from rfl,
    leaves1_2, after1_0, after1_1, after1_2]
  iintro ⟨HΦ, Ho, ⟨%d0, H0⟩, ⟨%d1, H1⟩, ⟨%d2, H2⟩⟩
  iapply (sound_kernel1 c Set.univ t _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.KRun.lean ====
/-
  The whole program on the TensorCores, from the launch to the return: two transposes and two reshapes on the host,
  the projection call, the attention call.

  The contents of a core's unscoped buffers are followed from boundary to boundary: as launched (`M0`); after the four
  host operations (`M1`: the transposed weights and the bias rows are in place); after the projection call (`M2`: its
  two outputs hold what its eight write-backs leave, everything else as before); after the attention call (`M3`: the
  score matrix holds what the sixty-four write-backs leave). Each call is a segment of the run entered from "every
  unscoped buffer at the boundary's contents, the generator register at some state, nothing owed" and left at the
  next boundary's; the host operations are a segment by themselves. The run's post names EVERY unscoped buffer at
  `M3`; the argument arrays, which no operation and no call writes, are read back through the boundaries to the
  launch contents.
-/
import proofs.«144558_j63737314673218_1_alg».proof.Proof.KRegion0
import proofs.«144558_j63737314673218_1_alg».proof.Proof.KRegion1
import proofs.«144558_j63737314673218_1_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev M0 : Dev nD → Valuation τ sig (Elt F) := fun c b => (s₀ m ρ).mem ((c : Dev nD), b)
/-- After the host operations (the projection call's entry). -/
abbrev M1 : Dev nD → Valuation τ sig (Elt F) := fun c => StableHlo.after hostOps0 (M0 m ρ c)
/-- The same read at the TensorCore's references. -/
abbrev E1 : (c : Dev nD) → (b : Ref sig .tc) → Buf (Elt F) ((c : Thread nD τ).loc b) := fun c b => M1 m ρ c b
/-- At the projection call's exit: its arrays at what the pipeline leaves, every other buffer as entered. -/
def M2 (c : Dev nD) : Valuation τ sig (Elt F) :=
  Pipeline.withArrays spec0 c (M1 m ρ c) fun w => (dat0 (E1 m ρ) c).arrAt w cfg0.N
theorem M2_arr (c : Dev nD) (w : Fin cfg0.W) :
    M2 m ρ c (Proc.devRef .tc (Pipeline.arrRef spec0 w)) = (dat0 (E1 m ρ) c).arrAt w cfg0.N := by
  unfold M2; exact Pipeline.withArrays_arr spec0 launch0.win.arr_inj c _ _ w
theorem M2_of_ne (c : Dev nD) (b : Ref sig .tc) (hb : ∀ w, Pipeline.arrRef spec0 w ≠ b) :
    M2 m ρ c (Proc.devRef .tc b) = M1 m ρ c (Proc.devRef .tc b) := by
  unfold M2; exact Pipeline.withArrays_of_ne spec0 c _ _ b hb
/-- The same read at the TensorCore's references (the attention call's entry). -/
abbrev E2 : (c : Dev nD) → (b : Ref sig .tc) → Buf (Elt F) ((c : Thread nD τ).loc b) := fun c b => M2 m ρ c b
theorem hF0 (c : Dev nD) (w : Fin cfg0.W) : (dat0 (E1 m ρ) c).arrAt w cfg0.N = E2 m ρ c (Pipeline.arrRef spec0 w) :=
  (M2_arr m ρ c w).symm
theorem hrest0 (c : Dev nD) : ∀ b, b ∉ Finset.univ.image (Pipeline.arrRef spec0) → E2 m ρ c b = E1 m ρ c b :=
  fun b hb => M2_of_ne m ρ c b fun w e => hb (Finset.mem_image.mpr ⟨w, Finset.mem_univ _, e⟩)

/-- At the attention call's exit: its arrays at what the pipeline leaves, every other buffer as entered. -/
def M3 (c : Dev nD) : Valuation τ sig (Elt F) :=
  Pipeline.withArrays spec1 c (M2 m ρ c) fun w => (dat1 (E2 m ρ) c).arrAt w cfg1.N
theorem M3_arr (c : Dev nD) (w : Fin cfg1.W) :
    M3 m ρ c (Proc.devRef .tc (Pipeline.arrRef spec1 w)) = (dat1 (E2 m ρ) c).arrAt w cfg1.N := by
  unfold M3; exact Pipeline.withArrays_arr spec1 launch1.win.arr_inj c _ _ w
theorem M3_of_ne (c : Dev nD) (b : Ref sig .tc) (hb : ∀ w, Pipeline.arrRef spec1 w ≠ b) :
    M3 m ρ c (Proc.devRef .tc b) = M2 m ρ c (Proc.devRef .tc b) := by
  unfold M3; exact Pipeline.withArrays_of_ne spec1 c _ _ b hb
abbrev E3 : (c : Dev nD) → (b : Ref sig .tc) → Buf (Elt F) ((c : Thread nD τ).loc b) := fun c b => M3 m ρ c b
theorem hF1 (c : Dev nD) (w : Fin cfg1.W) : (dat1 (E2 m ρ) c).arrAt w cfg1.N = E3 m ρ c (Pipeline.arrRef spec1 w) :=
  (M3_arr m ρ c w).symm
theorem hrest1 (c : Dev nD) : ∀ b, b ∉ Finset.univ.image (Pipeline.arrRef spec1) → E3 m ρ c b = E2 m ρ c b :=
  fun b hb => M3_of_ne m ρ c b fun w e => hb (Finset.mem_image.mpr ⟨w, Finset.mem_univ _, e⟩)

/-! ## The proof data family and the thread state -/

/-- No call has a prefetched table. -/
abbrev admK : (p : Fin 2) → (pcfgs (F := F) p).Adm := fun p => (cfgs p).toPCfg_adm
/-- Each call's proof data at its entry contents. -/
def pdatsK : (p : Fin 2) → (c : Dev nD) → Dat τ (Elt F) Unit ℕ (UR sig nD τ) ℕ (Pipeline.pin (pcfgs (F := F)) admK p) c
  | ⟨0, _⟩ => fun c => dat0 (E1 m ρ) c
  | ⟨1, _⟩ => fun c => dat1 (E2 m ρ) c
abbrev 𝒱K : Variants := Variants.none
/-- No core owes another anything: no level is assigned. -/
abbrev LK : GSem nD τ sig → Finset Unit := fun _ => ∅
abbrev lvK : GSem nD τ sig → Unit → ℕ := fun _ _ => 0
/-- What rides beside the buffers through every segment: the generator register at some state and the core's dues, none. -/
abbrev RK (c : Dev nD) : sProp 𝕄 := iprop((∃ r, prngReg c r) ∗ ∃ W, owes (c : Thread nD τ) (0 : CellTallies nD τ sig Unit) W)
/-- The host operations as a segment. -/
abbrev hsegK (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱K LK lvK :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RK

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev TnK (c : Dev nD) : sProp 𝕄 := iprop(StableHlo.held (c : Thread nD τ) (Pipeline.ucRefs τ sig) (M3 m ρ c) ∗ ∃ r, prngReg c r)

/-! ## The calls as segments -/

set_option backward.isDefEq.respectTransparency.types false in
/-- The projection call: entered from every unscoped buffer at `M1`, left at `M2`. -/
def regA : Pipeline.RegionSeg (pcfgs (F := F)) admK (pdatsK m ρ) () defs₀ 𝒱K LK lvK 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ LK lvK 0 fun _ _ => rfl
  pre c := iprop(StableHlo.held (c : Thread nD τ) (Pipeline.ucRefs τ sig) (M1 m ρ c) ∗ RK c)
  post c := iprop(StableHlo.held (c : Thread nD τ) (Pipeline.ucRefs τ sig) (M2 m ρ c) ∗ RK c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admK (pdatsK m ρ) launch0.win launch0.arr_whole c
      ((pdatsK m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsK m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdatsK m ρ) ((pdatsK m ρ 0 c).share_full fun _ => rfl)
      (E1 m ρ c) (E2 m ρ c) ((pdatsK m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call: entered from every unscoped buffer at `M2`, left at `M3` (what the launch reads at the end). -/
def regB : Pipeline.RegionSeg (pcfgs (F := F)) admK (pdatsK m ρ) () defs₀ 𝒱K LK lvK 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ LK lvK 1 fun _ _ => rfl
  pre c := iprop(StableHlo.held (c : Thread nD τ) (Pipeline.ucRefs τ sig) (M2 m ρ c) ∗ RK c)
  post c := iprop(TnK m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) admK (pdatsK m ρ) launch1.win launch1.arr_whole c
      ((pdatsK m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsK m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdatsK m ρ) ((pdatsK m ρ 1 c).share_full fun _ => rfl)
      (E2 m ρ c) (E3 m ρ c) ((pdatsK m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The three segments in order: the host operations, the projection call, the attention call. -/
abbrev segsK : List (Pipeline.Seg (pcfgs (F := F)) admK (pdatsK m ρ) () defs₀ 𝒱K LK lvK) :=
  [ .host (hsegK hostOps0 hostOps0_sub hostOps0_fresh (M0 m ρ)),
    .region (regA m ρ),
    .region (regB m ρ) ]
/-- The program IS the run of the segments. -/
theorem main_runK (c : Dev nD) : main (F := F) c = Pipeline.Seg.run (segsK m ρ) := (main_chain c).trans (by chain_rfl)

set_option backward.isDefEq.respectTransparency.types false in
/-- THE RUN: from any memory with zero counters, every weakly fair execution of the program on the TensorCores
    terminates, nothing faulting, and every final state holds every unscoped buffer at `M3`'s contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = M3 m ρ c b) :=
  Pipeline.θ_run_regions_kit (pcfgs (F := F)) admK (pdatsK m ρ) () cellOf_inj emb₁ defs₀ 𝒱K LK lvK m ρ main (segsK m ρ)
    (fun c Q => by rw [main_runK m ρ c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (M0 m ρ c) ∗ RK c)) (Tₙ := TnK m ρ)
    (hch := ⟨fun _ => .rfl, fun _ => .rfl, fun _ => .rfl, fun _ => .rfl⟩)
    (hinit := by
      refine Pipeline.initEach LK lvK fun c => ?_
      rw [show unscopedBufs c (fun b => m ((c : Thread nD τ).loc b)) = StableHlo.held (c : Thread nD τ) (Pipeline.ucRefs τ sig) (M0 m ρ c)
        from Pipeline.unscopedBufs_held c (M0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = M3 m ρ c b)
    (hfin := fun c s' => by
      iintro ⟨⟨Hh, -⟩, HSI⟩
      unfold StableHlo.held
      imodintro
      iapply (pointsTo_read_all (Pipeline.ucRefs τ sig) (fun b => (((c : Thread nD τ)).1, b)) (M3 m ρ c) s')
      isplitl [Hh] <;> iassumption)
    (hQ := fun s h => h)

/-! ## The arguments end as launched -/

/-- The mention matrix is the projection call's first input: the call does not write it, and no other item does. -/
theorem M3_main_arg0 (c : Dev nD) : M3 m ρ c (Proc.devRef .tc main_arg0) = m ((c : Thread nD τ).loc main_arg0) :=
  calc M3 m ρ c (Proc.devRef .tc main_arg0)
    _ = M2 m ρ c (Proc.devRef .tc main_arg0) := M3_of_ne m ρ c main_arg0 (by decide)
    _ = M1 m ρ c (Proc.devRef .tc main_arg0) := (M2_arr m ρ c 0).trans (((dat0 (E1 m ρ) c).arrAt_in 0 rfl _).trans (A_eq0 (E1 m ρ) c 0))
    _ = m ((c : Thread nD τ).loc main_arg0) := Gen.V1_of m c main_arg0 (by decide)
/-- The other four arguments are read by the host operations only. -/
theorem M3_main_arg1 (c : Dev nD) : M3 m ρ c (Proc.devRef .tc main_arg1) = m ((c : Thread nD τ).loc main_arg1) :=
  (M3_of_ne m ρ c main_arg1 (by decide)).trans ((M2_of_ne m ρ c main_arg1 (by decide)).trans (Gen.V1_of m c main_arg1 (by decide)))
theorem M3_main_arg2 (c : Dev nD) : M3 m ρ c (Proc.devRef .tc main_arg2) = m ((c : Thread nD τ).loc main_arg2) :=
  (M3_of_ne m ρ c main_arg2 (by decide)).trans ((M2_of_ne m ρ c main_arg2 (by decide)).trans (Gen.V1_of m c main_arg2 (by decide)))
theorem M3_main_arg3 (c : Dev nD) : M3 m ρ c (Proc.devRef .tc main_arg3) = m ((c : Thread nD τ).loc main_arg3) :=
  (M3_of_ne m ρ c main_arg3 (by decide)).trans ((M2_of_ne m ρ c main_arg3 (by decide)).trans (Gen.V1_of m c main_arg3 (by decide)))
theorem M3_main_arg4 (c : Dev nD) : M3 m ρ c (Proc.devRef .tc main_arg4) = m ((c : Thread nD τ).loc main_arg4) :=
  (M3_of_ne m ρ c main_arg4 (by decide)).trans ((M2_of_ne m ρ c main_arg4 (by decide)).trans (Gen.V1_of m c main_arg4 (by decide)))

/-- The frame: the program runs to the end, faults nowhere, and leaves its five argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (M3_main_arg0 m ρ c),
     (h c _ (mem_uc main_arg1 (by decide))).trans (M3_main_arg1 m ρ c),
     (h c _ (mem_uc main_arg2 (by decide))).trans (M3_main_arg2 m ρ c),
     (h c _ (mem_uc main_arg3 (by decide))).trans (M3_main_arg3 m ρ c),
     (h c _ (mem_uc main_arg4 (by decide))).trans (M3_main_arg4 m ρ c)⟩) (run_all m ρ)

end Cert.Kernel.Frame

end
-- ==== Proof.KiRegion0.lean ====
/-
  The projection call (the first of the program's two kernel calls), on one core, from ANY contents `V` of the
  core's buffers at its entry.

  The call walks eight row blocks of the mention matrix. At block `t` its body is handed rows
  `1024 t … 1024 t + 1023` of the mentions (window 0), the two transposed weight matrices whole (windows 1, 3) and the
  two bias rows (windows 2, 4); it stores one whole 1024 × 1024 block into each of its two outputs (windows 5, 6):
  the scaled query projection `(x · Wqᵀ + bq) · 2⁻⁵` and the key projection `x · Wkᵀ + bk` of those rows, and
  every block is written back. Nothing is carried from one block to the next.

  Stated here, at any float instance: what each input window's buffer holds when the body runs (its block of the
  entry contents, fetched at that point or kept from an earlier one), what the body leaves in the two output
  buffers as a pure term of those blocks, the body's triple, and the per-point obligation of the pipeline rule.
-/
import proofs.«144558_j63737314673218_1_alg».proof.Proof.Gen.KernelIdeal.Launch
import proofs.«144558_j63737314673218_1_alg».proof.Proof.Gen.KernelIdeal.Skeleton
import proofs.«144558_j63737314673218_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds the window's block at every point, fetched there or not: where it is
    not fetched the block index has not moved since the last fetch and the body left the buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and each store is of a whole buffer -/

abbrev rSq : Rect S1024x1024 := Rect.unit (s := S1024x1024) ![0, 0] S1024x1024.size inb_S1024x1024_S1024x1024_0_0
abbrev rRow : Rect S1x1024 := Rect.unit (s := S1x1024) ![0, 0] S1x1024.size inb_S1x1024_S1x1024_0_0

/-! ## What the body leaves in the two output buffers -/

/-- The query output's buffer after the body: its one store, of the scaled projection of the mention block `x` by the
    weight block `wq` with the bias row `bq`. -/
def out0_5 (x wq : Vec F S1024x1024 .f32) (bq : Vec F S1x1024 .f32) : Vec F S1024x1024 .bf16 :=
  View.canon [⟨rSq, k0_pay2 (View.ld x rSq) (View.ld wq rSq) (View.ld bq rRow)⟩]
/-- The key output's buffer after the body: its one store, of the projection of `x` by `wk` with the bias row `bk`. -/
def out0_6 (x wk : Vec F S1024x1024 .f32) (bk : Vec F S1x1024 .f32) : Vec F S1024x1024 .bf16 :=
  View.canon [⟨rSq, k0_pay3 (View.ld x rSq) (View.ld wk rSq) (View.ld bk rRow)⟩]

/-- One store of the whole buffer covers it. -/
theorem cover0 (p0 : Vec F S1024x1024 .bf16) (y : S1024x1024.Idx) :
    ∃ pc ∈ ([⟨rSq, p0⟩] : List (View.Piece (Elt F) S1024x1024 .bf16)), y ∈ pc.1.set :=
  View.cover_of_tiled [⟨rSq, p0⟩] S1024x1024.size (by rfl) y

/-! ## The body's triple -/

set_option maxHeartbeats 2000000 in
/-- On whole staging buffers — the five inputs' at contents `x`, `wq`, `bq`, `wk`, `bk`, the two outputs' at
    anything — the body runs to its end, leaves the inputs' as they were and the outputs' at `out0_5`, `out0_6`
    of the inputs'. -/
theorem sound_kernel0 (c : Dev nD) (E : Set ℕ) (i : grid0.Coords)
    (arg1 : Memref sig .tc .vmem S1024x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .bf16) (harg7 : arg7.IsWhole)
    (x wq : Vec F S1024x1024 .f32) (bq : Vec F S1x1024 .f32) (wk : Vec F S1024x1024 .f32) (bk : Vec F S1x1024 .f32) (K : PUnit → sProp 𝕄) :
    iprop(owns (c : Thread nD τ) arg1 fullShare x ∗ owns (c : Thread nD τ) arg2 fullShare wq ∗ owns (c : Thread nD τ) arg3 fullShare bq
        ∗ owns (c : Thread nD τ) arg4 fullShare wk ∗ owns (c : Thread nD τ) arg5 fullShare bk
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare wq ∗ owns (c : Thread nD τ) arg3 fullShare bq
            ∗ owns (c : Thread nD τ) arg4 fullShare wk ∗ owns (c : Thread nD τ) arg5 fullShare bk
            ∗ owns (c : Thread nD τ) arg6 fullShare (out0_5 x wq bq) ∗ owns (c : Thread nD τ) arg7 fullShare (out0_6 x wk bk)) -∗ K ⟨⟩))
      ⊢ wp frame (wpE (defs₀ (F := F)) Variants.none c none) E (cc0__lambda_ i arg1 harg1 arg2 harg2 arg3 harg3 arg4 harg4 arg5 harg5 arg6 harg6 arg7 harg7) K := by
  simp only [cc0__lambda__eq_skeleton]; unfold cc0__lambda__skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The call's proof data -/

/-- The arrays as the call finds them; after the body at point `t` each input's buffer at its block and each output's
    at `out0_5`, `out0_6` of the input blocks; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) := by dsimp only [dat0]
theorem after0_6 (c : Dev nD) (t : Fin cfg0.N) :
    (dat0 V c).after 6 t = out0_6 (iblk0 V c 0 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KiRegion1.lean ====
/-
  The attention call (the second of the program's two kernel calls), on one core, from ANY contents `V` of the core's
  buffers at its entry.

  The call walks the 8 × 8 grid of 1024 × 1024 tiles of the score matrix, tile `(qi, kj)` at point `8 qi + kj`. Its body
  is handed query rows `1024 qi …` (window 0) and key rows `1024 kj …` (window 1) and stores one whole tile into the
  output (window 2), which is written back at every point. Which store runs is decided by the tile alone:
    * a tile strictly above the diagonal (`1024 kj > 1024 qi + 1023`) is filled with −∞;
    * any other tile gets the products `q · kᵀ`, with −∞ where the column index exceeds the row index.
  The two conditions are complementary over the grid, so exactly one store runs at each point.

  Stated here, at any float instance: what the input windows' buffers hold when the body runs, what the body leaves in
  the output's buffer in each case, the body's triple in each case, and the per-point obligation of the pipeline rule.
-/
import proofs.«144558_j63737314673218_1_alg».proof.Proof.Gen.KernelIdeal.Launch
import proofs.«144558_j63737314673218_1_alg».proof.Proof.Gen.KernelIdeal.Skeleton
import proofs.«144558_j63737314673218_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions -/

/-- At every point of the grid exactly one of the body's two conditions holds: the second is the first negated. -/
theorem cond_compl : ∀ t : Fin cfg1.N, k1_cond1 (grid1.coords t) = 1#1 ↔ ¬ k1_cond2 (grid1.coords t) = 1#1 :=
  (by decide +kernel : ∀ t : Fin grid1.N, k1_cond1 (grid1.coords t) = 1#1 ↔ ¬ k1_cond2 (grid1.coords t) = 1#1)

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds the window's block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each load and each store is of a whole buffer -/

abbrev rTile : Rect S1024x1024 := Rect.unit (s := S1024x1024) ![0, 0] S1024x1024.size inb_S1024x1024_S1024x1024_0_0

/-! ## What the body leaves in the output's buffer -/

/-- The output tile after the body at grid coordinates `i`, from the query block `q` and the key block `k`: all −∞ on a
    tile strictly above the diagonal, the masked products otherwise. -/
def out1_2 (i : grid1.Coords) (q k : Vec F S1024x1024 .bf16) : Vec F S1024x1024 .f32 :=
  if k1_cond1 i = 1#1 then View.canon [⟨rTile, k1_pay1 (F := F)⟩]
  else View.canon [⟨rTile, k1_pay2 i (View.ld q rTile) (View.ld k rTile)⟩]

/-- One store of the whole buffer covers it. -/
theorem cover1 (p0 : Vec F S1024x1024 .f32) (y : S1024x1024.Idx) :
    ∃ pc ∈ ([⟨rTile, p0⟩] : List (View.Piece (Elt F) S1024x1024 .f32)), y ∈ pc.1.set :=
  View.cover_of_tiled [⟨rTile, p0⟩] S1024x1024.size (by rfl) y

/-! ## The body's triple, case by case -/

set_option maxHeartbeats 2000000 in
/-- A tile strictly above the diagonal: the first store runs, the second does not. -/
theorem sound_kernel1_above (c : Dev nD) (E : Set ℕ) (i : grid1.Coords) (h1 : k1_cond1 i = 1#1) (h2 : ¬ k1_cond2 i = 1#1)
    (arg2 : Memref sig .tc .vmem S1024x1024 .bf16) (harg2 : arg2.IsWhole) (arg3 : Memref sig .tc .vmem S1024x1024 .bf16) (harg3 : arg3.IsWhole)
    (arg4 : Memref sig .tc .vmem S1024x1024 .f32) (harg4 : arg4.IsWhole)
    (q k : Vec F S1024x1024 .bf16) (K : PUnit → sProp 𝕄) :
    iprop(owns (c : Thread nD τ) arg2 fullShare q ∗ owns (c : Thread nD τ) arg3 fullShare k ∗ (∃ d, owns (c : Thread nD τ) arg4 fullShare d)
        ∗ (iprop(owns (c : Thread nD τ) arg2 fullShare q ∗ owns (c : Thread nD τ) arg3 fullShare k
            ∗ owns (c : Thread nD τ) arg4 fullShare (out1_2 i q k)) -∗ K ⟨⟩))
      ⊢ wp frame (wpE (defs₀ (F := F)) Variants.none c none) E (cc1__lambda_ i arg2 harg2 arg3 harg3 arg4 harg4) K := by
  simp only [cc1__lambda__eq_skeleton]; unfold cc1__lambda__skel
  unfold out1_2; rw [if_pos h1]
  unfold owns
  iintro ⟨⟨%f2, %hf2, H2⟩, ⟨%f3, %hf3, H3⟩, ⟨%d4, %f4, -, H4⟩, Hk⟩
  subst hf2; subst hf3
  sl_exec (disch := first | exact h1 | exact h2)
  sl_step
  iapply Hk
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

set_option maxHeartbeats 2000000 in
/-- A tile on or below the diagonal: the first store does not run, the second does. -/
theorem sound_kernel1_below (c : Dev nD) (E : Set ℕ) (i : grid1.Coords) (h1 : ¬ k1_cond1 i = 1#1) (h2 : k1_cond2 i = 1#1)
    (arg2 : Memref sig .tc .vmem S1024x1024 .bf16) (harg2 : arg2.IsWhole) (arg3 : Memref sig .tc .vmem S1024x1024 .bf16) (harg3 : arg3.IsWhole)
    (arg4 : Memref sig .tc .vmem S1024x1024 .f32) (harg4 : arg4.IsWhole)
    (q k : Vec F S1024x1024 .bf16) (K : PUnit → sProp 𝕄) :
    iprop(owns (c : Thread nD τ) arg2 fullShare q ∗ owns (c : Thread nD τ) arg3 fullShare k ∗ (∃ d, owns (c : Thread nD τ) arg4 fullShare d)
        ∗ (iprop(owns (c : Thread nD τ) arg2 fullShare q ∗ owns (c : Thread nD τ) arg3 fullShare k
            ∗ owns (c : Thread nD τ) arg4 fullShare (out1_2 i q k)) -∗ K ⟨⟩))
      ⊢ wp frame (wpE (defs₀ (F := F)) Variants.none c none) E (cc1__lambda_ i arg2 harg2 arg3 harg3 arg4 harg4) K := by
  simp only [cc1__lambda__eq_skeleton]; unfold cc1__lambda__skel
  unfold out1_2; rw [if_neg h1]
  unfold owns
  iintro ⟨⟨%f2, %hf2, H2⟩, ⟨%f3, %hf3, H3⟩, ⟨%d4, %f4, -, H4⟩, Hk⟩
  subst hf2; subst hf3
  sl_exec (disch := first | exact h1 | exact h2)
  sl_step
  iapply Hk
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

/-- The body's triple at any point of the grid. -/
theorem sound_kernel1 (c : Dev nD) (E : Set ℕ) (t : Fin cfg1.N)
    (arg2 : Memref sig .tc .vmem S1024x1024 .bf16) (harg2 : arg2.IsWhole) (arg3 : Memref sig .tc .vmem S1024x1024 .bf16) (harg3 : arg3.IsWhole)
    (arg4 : Memref sig .tc .vmem S1024x1024 .f32) (harg4 : arg4.IsWhole)
    (q k : Vec F S1024x1024 .bf16) (K : PUnit → sProp 𝕄) :
    iprop(owns (c : Thread nD τ) arg2 fullShare q ∗ owns (c : Thread nD τ) arg3 fullShare k ∗ (∃ d, owns (c : Thread nD τ) arg4 fullShare d)
        ∗ (iprop(owns (c : Thread nD τ) arg2 fullShare q ∗ owns (c : Thread nD τ) arg3 fullShare k
            ∗ owns (c : Thread nD τ) arg4 fullShare (out1_2 (grid1.coords t) q k)) -∗ K ⟨⟩))
      ⊢ wp frame (wpE (defs₀ (F := F)) Variants.none c none) E (cc1__lambda_ (grid1.coords t) arg2 harg2 arg3 harg3 arg4 harg4) K := by
  by_cases h1 : k1_cond1 (grid1.coords t) = 1#1
  · exact sound_kernel1_above c E _ h1 ((cond_compl t).mp h1) arg2 harg2 arg3 harg3 arg4 harg4 q k K
  · exact sound_kernel1_below c E _ h1 (Classical.not_not.mp (fun h2 => h1 ((cond_compl t).mpr h2))) arg2 harg2 arg3 harg3 arg4 harg4 q k K

/-! ## The call's proof data -/

/-- The arrays as the call finds them; after the body at point `t` each input's buffer at its block and the output's at
    `out1_2` of the input blocks; the invariant the scoped rest and the generator register, untouched; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (grid1.coords t) (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (grid1.coords t) (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The output's block is written back at every point, so the rule asks of its buffer what the body stored there,
    whether or not the configuration counts the point as one where the body stores nothing. -/
theorem leaves1_2 (c : Dev nD) (t : Fin cfg1.N) :
    (dat1 V c).leavesExact 2 t = owns (c : Thread nD τ) (st1_2 t) fullShare ((dat1 V c).after 2 t) := by
  unfold Dat.leavesExact
  rw [flush1_2 t]
  cases cfg1.idle 2 (cfg1.grid.coords t) <;> rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    show (dat1 V c).leavesExact 0 t = owns (c : Thread nD τ) (st1_0 t) fullShare ((dat1 V c).after 0 t) from rfl,
    show (dat1 V c).leavesExact 1 t = owns (c : Thread nD τ) (st1_1 t) fullShare ((dat1 V c).after 1 t) from rfl,
    leaves1_2, after1_0, after1_1, after1_2]
  iintro ⟨HΦ, Ho, ⟨%d0, H0⟩, ⟨%d1, H1⟩, ⟨%d2, H2⟩⟩
  iapply (sound_kernel1 c Set.univ t _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KiRun.lean ====
/-
  The whole program on the TensorCores, from the launch to the return: two transposes and two reshapes on the host,
  the projection call, the attention call.

  The contents of a core's unscoped buffers are followed from boundary to boundary: as launched (`M0`); after the four
  host operations (`M1`: the transposed weights and the bias rows are in place); after the projection call (`M2`: its
  two outputs hold what its eight write-backs leave, everything else as before); after the attention call (`M3`: the
  score matrix holds what the sixty-four write-backs leave). Each call is a segment of the run entered from "every
  unscoped buffer at the boundary's contents, the generator register at some state, nothing owed" and left at the
  next boundary's; the host operations are a segment by themselves. The run's post names EVERY unscoped buffer at
  `M3`; the argument arrays, which no operation and no call writes, are read back through the boundaries to the
  launch contents.
-/
import proofs.«144558_j63737314673218_1_alg».proof.Proof.KiRegion0
import proofs.«144558_j63737314673218_1_alg».proof.Proof.KiRegion1
import proofs.«144558_j63737314673218_1_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev M0 : Dev nD → Valuation τ sig (Elt F) := fun c b => (s₀ m ρ).mem ((c : Dev nD), b)
/-- After the host operations (the projection call's entry). -/
abbrev M1 : Dev nD → Valuation τ sig (Elt F) := fun c => StableHlo.after hostOps0 (M0 m ρ c)
/-- The same read at the TensorCore's references. -/
abbrev E1 : (c : Dev nD) → (b : Ref sig .tc) → Buf (Elt F) ((c : Thread nD τ).loc b) := fun c b => M1 m ρ c b
/-- At the projection call's exit: its arrays at what the pipeline leaves, every other buffer as entered. -/
def M2 (c : Dev nD) : Valuation τ sig (Elt F) :=
  Pipeline.withArrays spec0 c (M1 m ρ c) fun w => (dat0 (E1 m ρ) c).arrAt w cfg0.N
theorem M2_arr (c : Dev nD) (w : Fin cfg0.W) :
    M2 m ρ c (Proc.devRef .tc (Pipeline.arrRef spec0 w)) = (dat0 (E1 m ρ) c).arrAt w cfg0.N := by
  unfold M2; exact Pipeline.withArrays_arr spec0 launch0.win.arr_inj c _ _ w
theorem M2_of_ne (c : Dev nD) (b : Ref sig .tc) (hb : ∀ w, Pipeline.arrRef spec0 w ≠ b) :
    M2 m ρ c (Proc.devRef .tc b) = M1 m ρ c (Proc.devRef .tc b) := by
  unfold M2; exact Pipeline.withArrays_of_ne spec0 c _ _ b hb
/-- The same read at the TensorCore's references (the attention call's entry). -/
abbrev E2 : (c : Dev nD) → (b : Ref sig .tc) → Buf (Elt F) ((c : Thread nD τ).loc b) := fun c b => M2 m ρ c b
theorem hF0 (c : Dev nD) (w : Fin cfg0.W) : (dat0 (E1 m ρ) c).arrAt w cfg0.N = E2 m ρ c (Pipeline.arrRef spec0 w) :=
  (M2_arr m ρ c w).symm
theorem hrest0 (c : Dev nD) : ∀ b, b ∉ Finset.univ.image (Pipeline.arrRef spec0) → E2 m ρ c b = E1 m ρ c b :=
  fun b hb => M2_of_ne m ρ c b fun w e => hb (Finset.mem_image.mpr ⟨w, Finset.mem_univ _, e⟩)

/-- At the attention call's exit: its arrays at what the pipeline leaves, every other buffer as entered. -/
def M3 (c : Dev nD) : Valuation τ sig (Elt F) :=
  Pipeline.withArrays spec1 c (M2 m ρ c) fun w => (dat1 (E2 m ρ) c).arrAt w cfg1.N
theorem M3_arr (c : Dev nD) (w : Fin cfg1.W) :
    M3 m ρ c (Proc.devRef .tc (Pipeline.arrRef spec1 w)) = (dat1 (E2 m ρ) c).arrAt w cfg1.N := by
  unfold M3; exact Pipeline.withArrays_arr spec1 launch1.win.arr_inj c _ _ w
theorem M3_of_ne (c : Dev nD) (b : Ref sig .tc) (hb : ∀ w, Pipeline.arrRef spec1 w ≠ b) :
    M3 m ρ c (Proc.devRef .tc b) = M2 m ρ c (Proc.devRef .tc b) := by
  unfold M3; exact Pipeline.withArrays_of_ne spec1 c _ _ b hb
abbrev E3 : (c : Dev nD) → (b : Ref sig .tc) → Buf (Elt F) ((c : Thread nD τ).loc b) := fun c b => M3 m ρ c b
theorem hF1 (c : Dev nD) (w : Fin cfg1.W) : (dat1 (E2 m ρ) c).arrAt w cfg1.N = E3 m ρ c (Pipeline.arrRef spec1 w) :=
  (M3_arr m ρ c w).symm
theorem hrest1 (c : Dev nD) : ∀ b, b ∉ Finset.univ.image (Pipeline.arrRef spec1) → E3 m ρ c b = E2 m ρ c b :=
  fun b hb => M3_of_ne m ρ c b fun w e => hb (Finset.mem_image.mpr ⟨w, Finset.mem_univ _, e⟩)

/-! ## The proof data family and the thread state -/

/-- No call has a prefetched table. -/
abbrev admK : (p : Fin 2) → (pcfgs (F := F) p).Adm := fun p => (cfgs p).toPCfg_adm
/-- Each call's proof data at its entry contents. -/
def pdatsK : (p : Fin 2) → (c : Dev nD) → Dat τ (Elt F) Unit ℕ (UR sig nD τ) ℕ (Pipeline.pin (pcfgs (F := F)) admK p) c
  | ⟨0, _⟩ => fun c => dat0 (E1 m ρ) c
  | ⟨1, _⟩ => fun c => dat1 (E2 m ρ) c
abbrev 𝒱K : Variants := Variants.none
/-- No core owes another anything: no level is assigned. -/
abbrev LK : GSem nD τ sig → Finset Unit := fun _ => ∅
abbrev lvK : GSem nD τ sig → Unit → ℕ := fun _ _ => 0
/-- What rides beside the buffers through every segment: the generator register at some state and the core's dues, none. -/
abbrev RK (c : Dev nD) : sProp 𝕄 := iprop((∃ r, prngReg c r) ∗ ∃ W, owes (c : Thread nD τ) (0 : CellTallies nD τ sig Unit) W)
/-- The host operations as a segment. -/
abbrev hsegK (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱K LK lvK :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RK

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev TnK (c : Dev nD) : sProp 𝕄 := iprop(StableHlo.held (c : Thread nD τ) (Pipeline.ucRefs τ sig) (M3 m ρ c) ∗ ∃ r, prngReg c r)

/-! ## The calls as segments -/

set_option backward.isDefEq.respectTransparency.types false in
/-- The projection call: entered from every unscoped buffer at `M1`, left at `M2`. -/
def regA : Pipeline.RegionSeg (pcfgs (F := F)) admK (pdatsK m ρ) () defs₀ 𝒱K LK lvK 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ LK lvK 0 fun _ _ => rfl
  pre c := iprop(StableHlo.held (c : Thread nD τ) (Pipeline.ucRefs τ sig) (M1 m ρ c) ∗ RK c)
  post c := iprop(StableHlo.held (c : Thread nD τ) (Pipeline.ucRefs τ sig) (M2 m ρ c) ∗ RK c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admK (pdatsK m ρ) launch0.win launch0.arr_whole c
      ((pdatsK m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsK m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdatsK m ρ) ((pdatsK m ρ 0 c).share_full fun _ => rfl)
      (E1 m ρ c) (E2 m ρ c) ((pdatsK m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call: entered from every unscoped buffer at `M2`, left at `M3` (what the launch reads at the end). -/
def regB : Pipeline.RegionSeg (pcfgs (F := F)) admK (pdatsK m ρ) () defs₀ 𝒱K LK lvK 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ LK lvK 1 fun _ _ => rfl
  pre c := iprop(StableHlo.held (c : Thread nD τ) (Pipeline.ucRefs τ sig) (M2 m ρ c) ∗ RK c)
  post c := iprop(TnK m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) admK (pdatsK m ρ) launch1.win launch1.arr_whole c
      ((pdatsK m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsK m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdatsK m ρ) ((pdatsK m ρ 1 c).share_full fun _ => rfl)
      (E2 m ρ c) (E3 m ρ c) ((pdatsK m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The three segments in order: the host operations, the projection call, the attention call. -/
abbrev segsK : List (Pipeline.Seg (pcfgs (F := F)) admK (pdatsK m ρ) () defs₀ 𝒱K LK lvK) :=
  [ .host (hsegK hostOps0 hostOps0_sub hostOps0_fresh (M0 m ρ)),
    .region (regA m ρ),
    .region (regB m ρ) ]
/-- The program IS the run of the segments. -/
theorem main_runK (c : Dev nD) : main (F := F) c = Pipeline.Seg.run (segsK m ρ) := (main_chain c).trans (by chain_rfl)

set_option backward.isDefEq.respectTransparency.types false in
/-- THE RUN: from any memory with zero counters, every weakly fair execution of the program on the TensorCores
    terminates, nothing faulting, and every final state holds every unscoped buffer at `M3`'s contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = M3 m ρ c b) :=
  Pipeline.θ_run_regions_kit (pcfgs (F := F)) admK (pdatsK m ρ) () cellOf_inj emb₁ defs₀ 𝒱K LK lvK m ρ main (segsK m ρ)
    (fun c Q => by rw [main_runK m ρ c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (M0 m ρ c) ∗ RK c)) (Tₙ := TnK m ρ)
    (hch := ⟨fun _ => .rfl, fun _ => .rfl, fun _ => .rfl, fun _ => .rfl⟩)
    (hinit := by
      refine Pipeline.initEach LK lvK fun c => ?_
      rw [show unscopedBufs c (fun b => m ((c : Thread nD τ).loc b)) = StableHlo.held (c : Thread nD τ) (Pipeline.ucRefs τ sig) (M0 m ρ c)
        from Pipeline.unscopedBufs_held c (M0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = M3 m ρ c b)
    (hfin := fun c s' => by
      iintro ⟨⟨Hh, -⟩, HSI⟩
      unfold StableHlo.held
      imodintro
      iapply (pointsTo_read_all (Pipeline.ucRefs τ sig) (fun b => (((c : Thread nD τ)).1, b)) (M3 m ρ c) s')
      isplitl [Hh] <;> iassumption)
    (hQ := fun s h => h)

/-! ## The arguments end as launched -/

/-- The mention matrix is the projection call's first input: the call does not write it, and no other item does. -/
theorem M3_main_arg0 (c : Dev nD) : M3 m ρ c (Proc.devRef .tc main_arg0) = m ((c : Thread nD τ).loc main_arg0) :=
  calc M3 m ρ c (Proc.devRef .tc main_arg0)
    _ = M2 m ρ c (Proc.devRef .tc main_arg0) := M3_of_ne m ρ c main_arg0 (by decide)
    _ = M1 m ρ c (Proc.devRef .tc main_arg0) := (M2_arr m ρ c 0).trans (((dat0 (E1 m ρ) c).arrAt_in 0 rfl _).trans (A_eq0 (E1 m ρ) c 0))
    _ = m ((c : Thread nD τ).loc main_arg0) := Gen.V1_of m c main_arg0 (by decide)
/-- The other four arguments are read by the host operations only. -/
theorem M3_main_arg1 (c : Dev nD) : M3 m ρ c (Proc.devRef .tc main_arg1) = m ((c : Thread nD τ).loc main_arg1) :=
  (M3_of_ne m ρ c main_arg1 (by decide)).trans ((M2_of_ne m ρ c main_arg1 (by decide)).trans (Gen.V1_of m c main_arg1 (by decide)))
theorem M3_main_arg2 (c : Dev nD) : M3 m ρ c (Proc.devRef .tc main_arg2) = m ((c : Thread nD τ).loc main_arg2) :=
  (M3_of_ne m ρ c main_arg2 (by decide)).trans ((M2_of_ne m ρ c main_arg2 (by decide)).trans (Gen.V1_of m c main_arg2 (by decide)))
theorem M3_main_arg3 (c : Dev nD) : M3 m ρ c (Proc.devRef .tc main_arg3) = m ((c : Thread nD τ).loc main_arg3) :=
  (M3_of_ne m ρ c main_arg3 (by decide)).trans ((M2_of_ne m ρ c main_arg3 (by decide)).trans (Gen.V1_of m c main_arg3 (by decide)))
theorem M3_main_arg4 (c : Dev nD) : M3 m ρ c (Proc.devRef .tc main_arg4) = m ((c : Thread nD τ).loc main_arg4) :=
  (M3_of_ne m ρ c main_arg4 (by decide)).trans ((M2_of_ne m ρ c main_arg4 (by decide)).trans (Gen.V1_of m c main_arg4 (by decide)))

/-- The frame: the program runs to the end, faults nowhere, and leaves its five argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (M3_main_arg0 m ρ c),
     (h c _ (mem_uc main_arg1 (by decide))).trans (M3_main_arg1 m ρ c),
     (h c _ (mem_uc main_arg2 (by decide))).trans (M3_main_arg2 m ρ c),
     (h c _ (mem_uc main_arg3 (by decide))).trans (M3_main_arg3 m ρ c),
     (h c _ (mem_uc main_arg4 (by decide))).trans (M3_main_arg4 m ρ c)⟩) (run_all m ρ)

end Cert.KernelIdeal.Frame

end
-- ==== Proof.LibSignedWords.lean ====
/-
  Signed comparisons of 32-bit words that hold small numbers.

  A kernel or a reference that masks by position compares words built from `iota`s and tile offsets: numbers far below
  2³¹. On such words the signed orders are the orders of the numbers held, so a mask bit is a comparison of naturals.
  Stated for any two words below 2³¹, whatever expressions they are; the caller shows the bound and the value of each
  word (`BitVec.toNat_add`, `BitVec.toNat_mul`, `BitVec.toNat_ofNat`, then `omega`).
-/
import Idealize.ShloMosaic.PureOps.Ideal

namespace Cert.Lib.SignedWords

open Idealize.ShloMosaic

/-- A 32-bit word below 2³¹ read as a signed integer is the number it holds. -/
theorem toInt_of_small (u : BitVec 32) (h : u.toNat < 2 ^ 31) : u.toInt = (u.toNat : Int) := by
  rw [BitVec.toInt_eq_toNat_cond]
  rw [if_pos (by omega)]

/-- `cmpi sgt u v` on two words below 2³¹ is 1 exactly when the number in `v` is below the number in `u`. -/
theorem sgt_words (u v : BitVec 32) (hu : u.toNat < 2 ^ 31) (hv : v.toNat < 2 ^ 31) :
    IntOp.cmpi .sgt u v = if v.toNat < u.toNat then 1#1 else 0#1 := by
  show BitVec.ofBool (v.slt u) = _
  rw [BitVec.slt_eq_decide, toInt_of_small u hu, toInt_of_small v hv]
  by_cases h : v.toNat < u.toNat
  · rw [if_pos h, decide_eq_true (by exact_mod_cast h)]; rfl
  · rw [if_neg h, decide_eq_false (by exact_mod_cast h)]; rfl

/-- `cmpi sge u v` on two words below 2³¹ is 1 exactly when the number in `v` is at most the number in `u`. -/
theorem sge_words (u v : BitVec 32) (hu : u.toNat < 2 ^ 31) (hv : v.toNat < 2 ^ 31) :
    IntOp.cmpi .sge u v = if v.toNat ≤ u.toNat then 1#1 else 0#1 := by
  show BitVec.ofBool (v.sle u) = _
  rw [BitVec.sle_eq_decide, toInt_of_small u hu, toInt_of_small v hv]
  by_cases h : v.toNat ≤ u.toNat
  · rw [if_pos h, decide_eq_true (by exact_mod_cast h)]; rfl
  · rw [if_neg h, decide_eq_false (by exact_mod_cast h)]; rfl

/-- `cmpi slt u v` on two words below 2³¹ is 1 exactly when the number in `u` is below the number in `v`. -/
theorem slt_words (u v : BitVec 32) (hu : u.toNat < 2 ^ 31) (hv : v.toNat < 2 ^ 31) :
    IntOp.cmpi .slt u v = if u.toNat < v.toNat then 1#1 else 0#1 := by
  show BitVec.ofBool (u.slt v) = _
  rw [BitVec.slt_eq_decide, toInt_of_small u hu, toInt_of_small v hv]
  by_cases h : u.toNat < v.toNat
  · rw [if_pos h, decide_eq_true (by exact_mod_cast h)]; rfl
  · rw [if_neg h, decide_eq_false (by exact_mod_cast h)]; rfl

/-- `cmpi sle u v` on two words below 2³¹ is 1 exactly when the number in `u` is at most the number in `v`. -/
theorem sle_words (u v : BitVec 32) (hu : u.toNat < 2 ^ 31) (hv : v.toNat < 2 ^ 31) :
    IntOp.cmpi .sle u v = if u.toNat ≤ v.toNat then 1#1 else 0#1 := by
  show BitVec.ofBool (u.sle v) = _
  rw [BitVec.sle_eq_decide, toInt_of_small u hu, toInt_of_small v hv]
  by_cases h : u.toNat ≤ v.toNat
  · rw [if_pos h, decide_eq_true (by exact_mod_cast h)]; rfl
  · rw [if_neg h, decide_eq_false (by exact_mod_cast h)]; rfl

end Cert.Lib.SignedWords
-- ==== Proof.Spec.lean ====
/-
  The mathematics shared by the two programs, with no program in sight.

  Both compute, from a mention matrix `x` (8192 × 1024), two weight matrices and two bias vectors,
      q = (x · Wqᵀ + bq) · 2⁻⁵,    k = x · Wkᵀ + bk,    s = q · kᵀ  (8192 × 8192),
  and return `s` with −∞ wherever the column index exceeds the row index.  Over the extended reals:
    * the kernel multiplies by the literal 2⁻⁵ where the reference divides by √1024; √1024 = 32 exactly and a
      division by a nonzero real is the product with its inverse on EVERY extended real, so the two agree with no
      finiteness assumed (`div_sqrt_1024`);
    * the kernel selects −∞ where the reference adds −∞; `s + ⊥ = ⊥` for every `s`, and `s + 0 = s`;
    * both masks are signed comparisons of 32-bit words that hold numbers below 8192, so they are the comparisons
      of those numbers (the lemmas on signed comparisons of small words).
-/
import Idealize.ShloMosaic.PureOps.Ideal
import Idealize.ShloMosaic.PureOps.Ideal.Laws
import Idealize.ShloMosaic.Lib.ValueIdx
import proofs.«144558_j63737314673218_1_alg».proof.Proof.LibSignedWords

noncomputable section

open scoped BigOperators

namespace Cert.Spec

open Idealize.ShloMosaic Idealize.ShloMosaic.ValueIdx

/-! ## The literals -/

/-- The word `0x44800000` is 1024. -/
theorem ofBits_1024 : Ideal.ofBits .f32 0x44800000#32 = ((1024 : ℝ) : EReal) := by
  simp [Ideal.ofBits, Ideal.ieee, -EReal.coe_mul]; norm_num

/-- The word `0x3D000000` is 2⁻⁵ = 1/32. -/
theorem ofBits_inv32 : Ideal.ofBits .f32 0x3D000000#32 = ((1 / 32 : ℝ) : EReal) := by
  simp [Ideal.ofBits, Ideal.ieee, -EReal.coe_mul]; norm_num

/-- The word `0xFF800000` is −∞. -/
theorem ofBits_neg_inf : Ideal.ofBits .f32 0xFF800000#32 = (⊥ : EReal) := by
  simp [Ideal.ofBits, Ideal.ieee]

/-- √1024 = 32. -/
theorem sqrt_1024 : Ideal.sqrt ((1024 : ℝ) : EReal) = ((32 : ℝ) : EReal) := by
  show (if (1024 : ℝ) < 0 then (⊥ : EReal) else ((Real.sqrt 1024 : ℝ) : EReal)) = _
  rw [if_neg (by norm_num)]
  congr 1
  rw [show (1024 : ℝ) = 32 ^ 2 by norm_num]
  exact Real.sqrt_sq (by norm_num)

/-- Dividing by the square root of the word 1024 is multiplying by the word 2⁻⁵, at every extended real. -/
theorem div_sqrt_1024 (y : EReal) :
    Ideal.div y (Ideal.sqrt (Ideal.ofBits .f32 0x44800000#32)) = y * Ideal.ofBits .f32 0x3D000000#32 := by
  rw [ofBits_1024, sqrt_1024, ofBits_inv32]
  exact Ideal.div_coe (by norm_num) y

/-! ## Signed comparisons of small words -/

export Cert.Lib.SignedWords (toInt_of_small sgt_words sge_words)

/-- The word of a tile's first row or column plus the offset inside the tile holds `1024 q + a`. -/
theorem tile_word (q : Fin 8) (a : Fin 1024) :
    (IntOp.addi (IntOp.muli (BitVec.ofNat 32 q.val) 1024#32) (BitVec.ofNat 32 (0 * 1024 + a.val))).toNat = 1024 * q.val + a.val := by
  have hq := q.isLt; have ha := a.isLt
  show (BitVec.ofNat 32 q.val * 1024#32 + BitVec.ofNat 32 (0 * 1024 + a.val)).toNat = _
  rw [BitVec.toNat_add, BitVec.toNat_mul, BitVec.toNat_ofNat, BitVec.toNat_ofNat, BitVec.toNat_ofNat]
  omega

/-- The word of a row or column number below 8192, with the reference's zero offset added, holds that number. -/
theorem iota_word (r : Fin 8192) : (IntOp.addi (BitVec.ofNat 32 r.val) 0#32).toNat = r.val := by
  have hr := r.isLt
  show (BitVec.ofNat 32 r.val + 0#32).toNat = _
  rw [BitVec.toNat_add, BitVec.toNat_ofNat, BitVec.toNat_ofNat]
  omega
theorem iota_word' (r : Fin 8192) : (BitVec.ofNat 32 r.val).toNat = r.val := by
  have hr := r.isLt
  rw [BitVec.toNat_ofNat]
  omega

/-! ## The result as one function of the arrays -/

abbrev SX : Shape := ⟨2, ![8192, 1024]⟩
abbrev SW : Shape := ⟨2, ![1024, 1024]⟩
abbrev SR : Shape := ⟨2, ![1, 1024]⟩
abbrev SO : Shape := ⟨2, ![8192, 8192]⟩

/-- One entry of `x · wT + b`: row `i` of the mentions against column `e` of a weight matrix laid out
    [input feature, output feature], plus entry `e` of a bias laid out as one row. -/
def lin (x : SX.Idx → EReal) (wT : SW.Idx → EReal) (b : SR.Idx → EReal) (i : Fin 8192) (e : Fin 1024) : EReal :=
  (∑ d : Fin 1024, x (ix2 i d) * wT (ix2 d e)) + b (ix2 (0 : Fin 1) e)

/-- The scaled query projection, as an array. -/
def projQ (x : SX.Idx → EReal) (wT : SW.Idx → EReal) (b : SR.Idx → EReal) : SX.Idx → EReal :=
  fun p => lin x wT b (p 0) (p 1) * Ideal.ofBits .f32 0x3D000000#32
/-- The key projection, as an array. -/
def projK (x : SX.Idx → EReal) (wT : SW.Idx → EReal) (b : SR.Idx → EReal) : SX.Idx → EReal :=
  fun p => lin x wT b (p 0) (p 1)

/-- The masked scores: −∞ strictly above the diagonal, the product of query row and key row elsewhere. -/
def scores (q k : SX.Idx → EReal) : SO.Idx → EReal :=
  fun p => if (p 0).val < (p 1).val then ⊥ else ∑ e : Fin 1024, q (ix2 (p 0) e) * k (ix2 (p 1) e)

theorem projQ_at (x : SX.Idx → EReal) (wT : SW.Idx → EReal) (b : SR.Idx → EReal) (i : Fin 8192) (e : Fin 1024) :
    projQ x wT b (ix2 i e) = lin x wT b i e * Ideal.ofBits .f32 0x3D000000#32 := rfl
theorem projK_at (x : SX.Idx → EReal) (wT : SW.Idx → EReal) (b : SR.Idx → EReal) (i : Fin 8192) (e : Fin 1024) :
    projK x wT b (ix2 i e) = lin x wT b i e := rfl
theorem scores_at (q k : SX.Idx → EReal) (i j : Fin 8192) :
    scores q k (ix2 i j) = if i.val < j.val then ⊥ else ∑ e : Fin 1024, q (ix2 i e) * k (ix2 j e) := rfl

end Cert.Spec

end
-- ==== Proof.KiPay.lean ====
/-
  The kernel bodies' arithmetic, read at one entry `(a, b)` of a 1024 × 1024 tile, over the extended reals.

  The projection body's two stores: a matrix product of the mention block with a (transposed) weight block into a
  zero accumulator — the sum over the feature axis —, the bias row added along rows, and for the query the product
  with the literal 2⁻⁵; the changes of float format are the identity. The attention body's two stores: the constant −∞;
  and the product of the query block with the key block CONTRACTED ALONG BOTH BLOCKS' SECOND AXIS (`q · kᵀ`), with −∞
  selected where the entry's column number `1024 kj + b` exceeds its row number `1024 qi + a`.
-/
import proofs.«144558_j63737314673218_1_alg».proof.Proof.Gen.KernelIdeal.Skeleton
import proofs.«144558_j63737314673218_1_alg».proof.Proof.Spec
import Idealize.ShloMosaic.Lib.Pipeline.Value
import Idealize.ShloMosaic.Lib.ValueLayout

noncomputable section

open scoped BigOperators

namespace Cert.KernelIdeal.Val

open Cert.KernelIdeal Cert.KernelIdeal.Gen Cert.Spec
open Idealize.ShloMosaic Idealize.ShloMosaic.ValueIdx

/-! ## The operands' indices, axis by axis -/

theorem nn_lhs0 (i : S1024x1024.Idx) (q : dot_S1024x1024_S1024x1024_S1024x1024_1_0_0_1_n_n.contr.Idx) : (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem nn_lhs1 (i : S1024x1024.Idx) (q : dot_S1024x1024_S1024x1024_S1024x1024_1_0_0_1_n_n.contr.Idx) : (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem nn_rhs0 (i : S1024x1024.Idx) (q : dot_S1024x1024_S1024x1024_S1024x1024_1_0_0_1_n_n.contr.Idx) : (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem nn_rhs1 (i : S1024x1024.Idx) (q : dot_S1024x1024_S1024x1024_S1024x1024_1_0_0_1_n_n.contr.Idx) : (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl
theorem nt_lhs0 (i : S1024x1024.Idx) (q : dot_S1024x1024_S1024x1024_S1024x1024_1_1_0_0_n_n.contr.Idx) : (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem nt_lhs1 (i : S1024x1024.Idx) (q : dot_S1024x1024_S1024x1024_S1024x1024_1_1_0_0_n_n.contr.Idx) : (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem nt_rhs0 (i : S1024x1024.Idx) (q : dot_S1024x1024_S1024x1024_S1024x1024_1_1_0_0_n_n.contr.Idx) : (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem nt_rhs1 (i : S1024x1024.Idx) (q : dot_S1024x1024_S1024x1024_S1024x1024_1_1_0_0_n_n.contr.Idx) : (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-! ## The two matrix products as sums -/

/-- Rows of the left block against columns of the right block. -/
theorem matmul_nn_at (l r : FVec Ideal S1024x1024 .bf16) (a b : Fin 1024) :
    matmul dot_S1024x1024_S1024x1024_S1024x1024_1_0_0_1_n_n none l r (constant (F := Ideal) S1024x1024 .f32 0x00000000#32) (ix2 a b)
      = ∑ d : Fin 1024, l (ix2 a d) * r (ix2 d b) := by
  refine (Ideal.matmul_constant_zero_apply dot_S1024x1024_S1024x1024_S1024x1024_1_0_0_1_n_n none l r (ix2 a b)).trans ?_
  rw [← Equiv.sum_comp (contrEquiv1 dot_S1024x1024_S1024x1024_S1024x1024_1_0_0_1_n_n 1024 rfl rfl).symm]
  refine Finset.sum_congr rfl fun d _ => ?_
  have hk := contrEquiv1_symm_val dot_S1024x1024_S1024x1024_S1024x1024_1_0_0_1_n_n 1024 rfl rfl d
  have el : dot_S1024x1024_S1024x1024_S1024x1024_1_0_0_1_n_n.lhsIdx (ix2 a b) ((contrEquiv1 dot_S1024x1024_S1024x1024_S1024x1024_1_0_0_1_n_n 1024 rfl rfl).symm d) = ix2 a d :=
    funext fun ax => Fin.ext (by
      match ax with
      | ⟨0, _⟩ => exact nn_lhs0 _ _
      | ⟨1, _⟩ => exact (nn_lhs1 _ _).trans hk)
  have er : dot_S1024x1024_S1024x1024_S1024x1024_1_0_0_1_n_n.rhsIdx (ix2 a b) ((contrEquiv1 dot_S1024x1024_S1024x1024_S1024x1024_1_0_0_1_n_n 1024 rfl rfl).symm d) = ix2 d b :=
    funext fun ax => Fin.ext (by
      match ax with
      | ⟨0, _⟩ => exact (nn_rhs0 _ _).trans hk
      | ⟨1, _⟩ => exact nn_rhs1 _ _)
  rw [el, er]

/-- Rows of the left block against ROWS of the right block. -/
theorem matmul_nt_at (l r : FVec Ideal S1024x1024 .bf16) (a b : Fin 1024) :
    matmul dot_S1024x1024_S1024x1024_S1024x1024_1_1_0_0_n_n none l r (constant (F := Ideal) S1024x1024 .f32 0x00000000#32) (ix2 a b)
      = ∑ e : Fin 1024, l (ix2 a e) * r (ix2 b e) := by
  refine (Ideal.matmul_constant_zero_apply dot_S1024x1024_S1024x1024_S1024x1024_1_1_0_0_n_n none l r (ix2 a b)).trans ?_
  rw [← Equiv.sum_comp (contrEquiv1 dot_S1024x1024_S1024x1024_S1024x1024_1_1_0_0_n_n 1024 rfl rfl).symm]
  refine Finset.sum_congr rfl fun e _ => ?_
  have hk := contrEquiv1_symm_val dot_S1024x1024_S1024x1024_S1024x1024_1_1_0_0_n_n 1024 rfl rfl e
  have el : dot_S1024x1024_S1024x1024_S1024x1024_1_1_0_0_n_n.lhsIdx (ix2 a b) ((contrEquiv1 dot_S1024x1024_S1024x1024_S1024x1024_1_1_0_0_n_n 1024 rfl rfl).symm e) = ix2 a e :=
    funext fun ax => Fin.ext (by
      match ax with
      | ⟨0, _⟩ => exact nt_lhs0 _ _
      | ⟨1, _⟩ => exact (nt_lhs1 _ _).trans hk)
  have er : dot_S1024x1024_S1024x1024_S1024x1024_1_1_0_0_n_n.rhsIdx (ix2 a b) ((contrEquiv1 dot_S1024x1024_S1024x1024_S1024x1024_1_1_0_0_n_n 1024 rfl rfl).symm e) = ix2 b e :=
    funext fun ax => Fin.ext (by
      match ax with
      | ⟨0, _⟩ => exact nt_rhs0 _ _
      | ⟨1, _⟩ => exact (nt_rhs1 _ _).trans hk)
  rw [el, er]

/-! ## The projection body's stores -/

/-- The query store at `(a, b)`. -/
theorem pay_q_at (x wq : Vec Ideal S1024x1024 .f32) (bq : Vec Ideal S1x1024 .f32) (a b : Fin 1024) :
    k0_pay2 (F := Ideal) x wq bq (ix2 a b)
      = ((∑ d : Fin 1024, x (ix2 a d) * wq (ix2 d b)) + bq (ix2 (0 : Fin 1) b)) * Ideal.ofBits .f32 0x3D000000#32 := by
  unfold k0_pay2 k0_pay1
  rw [truncf_apply, mulf_apply, addf_apply, broadcast_apply, matmul_nn_at, shapeCast_self, shapeCast_self, broadcastTo_1b_ab_apply]
  rfl

/-- The key store at `(a, b)`. -/
theorem pay_k_at (x wk : Vec Ideal S1024x1024 .f32) (bk : Vec Ideal S1x1024 .f32) (a b : Fin 1024) :
    k0_pay3 (F := Ideal) x wk bk (ix2 a b) = (∑ d : Fin 1024, x (ix2 a d) * wk (ix2 d b)) + bk (ix2 (0 : Fin 1) b) := by
  unfold k0_pay3 k0_pay1
  rw [truncf_apply, addf_apply, matmul_nn_at, shapeCast_self, shapeCast_self, broadcastTo_1b_ab_apply]
  rfl

/-! ## The attention body's stores -/

/-- The fill of a tile strictly above the diagonal. -/
theorem pay_fill_at (a b : Fin 1024) : k1_pay1 (F := Ideal) (ix2 a b) = (⊥ : EReal) := by
  unfold k1_pay1
  rw [broadcast_apply]
  exact ofBits_neg_inf

/-- The masked products at `(a, b)` of tile `(qi, kj)`. -/
theorem pay_tile_at (i : grid1.Coords) (qi kj : Fin 8) (h0 : (i 0).val = qi.val) (h1 : (i 1).val = kj.val)
    (q k : Vec Ideal S1024x1024 .bf16) (a b : Fin 1024) :
    k1_pay2 (F := Ideal) i q k (ix2 a b)
      = if 1024 * qi.val + a.val < 1024 * kj.val + b.val then (⊥ : EReal) else ∑ e : Fin 1024, q (ix2 a e) * k (ix2 b e) := by
  have hq := qi.isLt; have hk := kj.isLt; have ha := a.isLt; have hb := b.isLt
  unfold k1_pay2
  rw [select_apply, broadcast_apply, matmul_nt_at, shapeCast_self, shapeCast_self]
  show Scalar.select (IntOp.cmpi .sgt (IntOp.addi (IntOp.muli (BitVec.ofNat 32 (i 1).val) 1024#32) (BitVec.ofNat 32 (0 * 1024 + b.val)))
      (IntOp.addi (IntOp.muli (BitVec.ofNat 32 (i 0).val) 1024#32) (BitVec.ofNat 32 (0 * 1024 + a.val))))
    (Ideal.ofBits .f32 0xFF800000#32) (∑ e : Fin 1024, q (ix2 a e) * k (ix2 b e)) = _
  rw [h0, h1, sgt_words _ _ (by rw [tile_word]; omega) (by rw [tile_word]; omega), tile_word, tile_word]
  by_cases h : 1024 * qi.val + a.val < 1024 * kj.val + b.val
  · rw [if_pos h, if_pos h]; exact (select_one _ _).trans ofBits_neg_inf
  · rw [if_neg h, if_neg h]; exact select_zero _ _

end Cert.KernelIdeal.Val

end
-- ==== Proof.KiVal0.lean ====
/-
  What the projection call leaves in its two output arrays, as whole-array functions of what it found.

  Point `t` of the call's eight handles rows `1024 t … 1024 t + 1023`: its mention block starts at row `1024 t`, the
  weight matrices and bias rows are whole, and the block it writes back into either output starts at row `1024 t`.
  So entry `(a, b)` of what point `t` writes back is entry `(1024 t + a, b)` of ONE function of the arrays the call
  found — the scaled query projection, resp. the key projection — and since every row `r` lies in the block of point
  `r / 1024`, the eight write-backs leave each output array holding that function everywhere.
-/
import proofs.«144558_j63737314673218_1_alg».proof.Proof.KiRegion0
import proofs.«144558_j63737314673218_1_alg».proof.Proof.KiPay

set_option maxRecDepth 16384

noncomputable section

open scoped BigOperators

namespace Cert.KernelIdeal.Val

open Cert.KernelIdeal Cert.KernelIdeal.Gen Cert.KernelIdeal.Frame Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the mention block and both output blocks move with the point along rows,
    everything else stays at block `(0, 0)`. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- A row inside point `t`'s block is a row of the array. -/
theorem row_lt0 (t : Fin cfg0.N) (a : Fin 1024) : 1024 * t.val + a.val < 8192 := by
  have ht : t.val < 8 := lt_of_lt_of_eq t.isLt N_0
  have ha := a.isLt
  omega

/-! ## The input blocks read at coordinates -/

theorem blk0_0_at (c : Dev nD) (t : Fin cfg0.N) (a d : Fin 1024) :
    iblk0 V c 0 t (ix2 a d) = V c main_arg0 (ix2 (⟨1024 * t.val + a.val, row_lt0 t a⟩ : Fin 8192) d) := by
  obtain ⟨e00, e01, -⟩ := idx0 t
  show V c main_arg0 (((cfg0.win 0).blk t).view.emb (ix2 a d)) = _
  refine congrArg (V c main_arg0) (funext fun ax => Fin.ext ?_)
  match ax with
  | ⟨0, _⟩ => show win0_0.index t (0 : Fin 2) * 1024 + 1 * a.val = 1024 * t.val + a.val; omega
  | ⟨1, _⟩ => show win0_0.index t (1 : Fin 2) * 1024 + 1 * d.val = d.val; omega
theorem blk0_1_at (c : Dev nD) (t : Fin cfg0.N) (d e : Fin 1024) :
    iblk0 V c 1 t (ix2 d e) = V c main_v0 (ix2 d e) := by
  obtain ⟨-, -, e10, e11, -⟩ := idx0 t
  show V c main_v0 (((cfg0.win 1).blk t).view.emb (ix2 d e)) = _
  refine congrArg (V c main_v0) (funext fun ax => Fin.ext ?_)
  match ax with
  | ⟨0, _⟩ => show win0_1.index t (0 : Fin 2) * 1024 + 1 * d.val = d.val; omega
  | ⟨1, _⟩ => show win0_1.index t (1 : Fin 2) * 1024 + 1 * e.val = e.val; omega
theorem blk0_2_at (c : Dev nD) (t : Fin cfg0.N) (e : Fin 1024) :
    iblk0 V c 2 t (ix2 (0 : Fin 1) e) = V c main_v2 (ix2 (0 : Fin 1) e) := by
  obtain ⟨-, -, -, -, e20, e21, -⟩ := idx0 t
  show V c main_v2 (((cfg0.win 2).blk t).view.emb (ix2 (0 : Fin 1) e)) = _
  refine congrArg (V c main_v2) (funext fun ax => Fin.ext ?_)
  match ax with
  | ⟨0, _⟩ => show win0_2.index t (0 : Fin 2) * 1 + 1 * 0 = 0; omega
  | ⟨1, _⟩ => show win0_2.index t (1 : Fin 2) * 1024 + 1 * e.val = e.val; omega
theorem blk0_3_at (c : Dev nD) (t : Fin cfg0.N) (d e : Fin 1024) :
    iblk0 V c 3 t (ix2 d e) = V c main_v1 (ix2 d e) := by
  obtain ⟨-, -, -, -, -, -, e30, e31, -⟩ := idx0 t
  show V c main_v1 (((cfg0.win 3).blk t).view.emb (ix2 d e)) = _
  refine congrArg (V c main_v1) (funext fun ax => Fin.ext ?_)
  match ax with
  | ⟨0, _⟩ => show win0_3.index t (0 : Fin 2) * 1024 + 1 * d.val = d.val; omega
  | ⟨1, _⟩ => show win0_3.index t (1 : Fin 2) * 1024 + 1 * e.val = e.val; omega
theorem blk0_4_at (c : Dev nD) (t : Fin cfg0.N) (e : Fin 1024) :
    iblk0 V c 4 t (ix2 (0 : Fin 1) e) = V c main_v3 (ix2 (0 : Fin 1) e) := by
  obtain ⟨-, -, -, -, -, -, -, -, e40, e41, -⟩ := idx0 t
  show V c main_v3 (((cfg0.win 4).blk t).view.emb (ix2 (0 : Fin 1) e)) = _
  refine congrArg (V c main_v3) (funext fun ax => Fin.ext ?_)
  match ax with
  | ⟨0, _⟩ => show win0_4.index t (0 : Fin 2) * 1 + 1 * 0 = 0; omega
  | ⟨1, _⟩ => show win0_4.index t (1 : Fin 2) * 1024 + 1 * e.val = e.val; omega

/-! ## What a point writes back -/

/-- Point `t` writes back block `t` of the scaled query projection of the arrays the call found. -/
theorem flushed5_eq (c : Dev nD) (t : Fin cfg0.N) :
    (dat0 V c).flushed 5 t = ((cfg0.win 5).blk t).view.read (Elt Ideal) (projQ (V c main_arg0) (V c main_v0) (V c main_v2)) := by
  show (cfg0.win 5).cut (grid0.coords t) ((dat0 V c).after 5 t) = _
  rw [after0_5]
  unfold out0_5
  rw [View.canon_unit_zero hz2]
  simp only [View.ld_unit_zero (S := S1024x1024) hz2, View.ld_unit_zero (S := S1x1024) hz2]
  obtain ⟨-, -, -, -, -, -, -, -, -, -, e50, e51, -⟩ := idx0 t
  funext j
  have hj0 : (j 0).val < 1024 := (j 0).isLt
  have hj1 : (j 1).val < 1024 := (j 1).isLt
  have hL : (cfg0.win 5).xinj (grid0.coords t) j = ix2 (⟨(j 0).val, hj0⟩ : Fin 1024) (⟨(j 1).val, hj1⟩ : Fin 1024) :=
    funext fun ax => Fin.ext (by match ax with | ⟨0, _⟩ => rfl | ⟨1, _⟩ => rfl)
  have hR : ((cfg0.win 5).blk t).view.emb j
      = ix2 (⟨1024 * t.val + (j 0).val, row_lt0 t ⟨(j 0).val, hj0⟩⟩ : Fin 8192) (⟨(j 1).val, hj1⟩ : Fin 1024) :=
    funext fun ax => Fin.ext (by
      match ax with
      | ⟨0, _⟩ => show win0_5.index t (0 : Fin 2) * 1024 + 1 * (j 0).val = 1024 * t.val + (j 0).val; omega
      | ⟨1, _⟩ => show win0_5.index t (1 : Fin 2) * 1024 + 1 * (j 1).val = (j 1).val; omega)
  show k0_pay2 (F := Ideal) (iblk0 V c 0 t) (iblk0 V c 1 t) (iblk0 V c 2 t) ((cfg0.win 5).xinj (grid0.coords t) j)
    = projQ (V c main_arg0) (V c main_v0) (V c main_v2) (((cfg0.win 5).blk t).view.emb j)
  rw [hL, hR, pay_q_at (iblk0 V c 0 t) (iblk0 V c 1 t) (iblk0 V c 2 t), projQ_at]
  unfold lin
  simp only [blk0_0_at, blk0_1_at, blk0_2_at]

/-- Point `t` writes back block `t` of the key projection of the arrays the call found. -/
theorem flushed6_eq (c : Dev nD) (t : Fin cfg0.N) :
    (dat0 V c).flushed 6 t = ((cfg0.win 6).blk t).view.read (Elt Ideal) (projK (V c main_arg0) (V c main_v1) (V c main_v3)) := by
  show (cfg0.win 6).cut (grid0.coords t) ((dat0 V c).after 6 t) = _
  rw [after0_6]
  unfold out0_6
  rw [View.canon_unit_zero hz2]
  simp only [View.ld_unit_zero (S := S1024x1024) hz2, View.ld_unit_zero (S := S1x1024) hz2]
  obtain ⟨-, -, -, -, -, -, -, -, -, -, -, -, e60, e61⟩ := idx0 t
  funext j
  have hj0 : (j 0).val < 1024 := (j 0).isLt
  have hj1 : (j 1).val < 1024 := (j 1).isLt
  have hL : (cfg0.win 6).xinj (grid0.coords t) j = ix2 (⟨(j 0).val, hj0⟩ : Fin 1024) (⟨(j 1).val, hj1⟩ : Fin 1024) :=
    funext fun ax => Fin.ext (by match ax with | ⟨0, _⟩ => rfl | ⟨1, _⟩ => rfl)
  have hR : ((cfg0.win 6).blk t).view.emb j
      = ix2 (⟨1024 * t.val + (j 0).val, row_lt0 t ⟨(j 0).val, hj0⟩⟩ : Fin 8192) (⟨(j 1).val, hj1⟩ : Fin 1024) :=
    funext fun ax => Fin.ext (by
      match ax with
      | ⟨0, _⟩ => show win0_6.index t (0 : Fin 2) * 1024 + 1 * (j 0).val = 1024 * t.val + (j 0).val; omega
      | ⟨1, _⟩ => show win0_6.index t (1 : Fin 2) * 1024 + 1 * (j 1).val = (j 1).val; omega)
  show k0_pay3 (F := Ideal) (iblk0 V c 0 t) (iblk0 V c 3 t) (iblk0 V c 4 t) ((cfg0.win 6).xinj (grid0.coords t) j)
    = projK (V c main_arg0) (V c main_v1) (V c main_v3) (((cfg0.win 6).blk t).view.emb j)
  rw [hL, hR, pay_k_at (iblk0 V c 0 t) (iblk0 V c 3 t) (iblk0 V c 4 t), projK_at]
  unfold lin
  simp only [blk0_0_at, blk0_3_at, blk0_4_at]

/-! ## The cover -/

theorem mem_blk5 (t : Fin cfg0.N) (i : S8192x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v4_0).slice (win0_5.rect t)).set ↔ _
  rw [View.set_slice_whole, Rect.mem_set_unit]
  exact Iff.rfl
theorem mem_blk6 (t : Fin cfg0.N) (i : S8192x1024.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v4_1).slice (win0_6.rect t)).set ↔ _
  rw [View.set_slice_whole, Rect.mem_set_unit]
  exact Iff.rfl

/-- Row `r` is in the block of point `r / 1024`. -/
theorem cover5 (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  have hN : (i 0).val / 1024 < cfg0.N := by rw [show cfg0.N = 8 from N_0]; omega
  obtain ⟨-, -, -, -, -, -, -, -, -, -, e50, e51, -⟩ := idx0 ⟨(i 0).val / 1024, hN⟩
  refine ⟨⟨(i 0).val / 1024, hN⟩, flush0_5 _, ?_⟩
  rw [mem_blk5]
  intro a
  match a with
  | ⟨0, _⟩ => show win0_5.index ⟨(i 0).val / 1024, hN⟩ (0 : Fin 2) * 1024 ≤ (i 0).val ∧ (i 0).val < win0_5.index ⟨(i 0).val / 1024, hN⟩ (0 : Fin 2) * 1024 + 1024; rw [e50]; show (i 0).val / 1024 * 1024 ≤ (i 0).val ∧ (i 0).val < (i 0).val / 1024 * 1024 + 1024; omega
  | ⟨1, _⟩ => show win0_5.index ⟨(i 0).val / 1024, hN⟩ (1 : Fin 2) * 1024 ≤ (i 1).val ∧ (i 1).val < win0_5.index ⟨(i 0).val / 1024, hN⟩ (1 : Fin 2) * 1024 + 1024; rw [e51]; omega
theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have hN : (i 0).val / 1024 < cfg0.N := by rw [show cfg0.N = 8 from N_0]; omega
  obtain ⟨-, -, -, -, -, -, -, -, -, -, -, -, e60, e61⟩ := idx0 ⟨(i 0).val / 1024, hN⟩
  refine ⟨⟨(i 0).val / 1024, hN⟩, flush0_6 _, ?_⟩
  rw [mem_blk6]
  intro a
  match a with
  | ⟨0, _⟩ => show win0_6.index ⟨(i 0).val / 1024, hN⟩ (0 : Fin 2) * 1024 ≤ (i 0).val ∧ (i 0).val < win0_6.index ⟨(i 0).val / 1024, hN⟩ (0 : Fin 2) * 1024 + 1024; rw [e60]; show (i 0).val / 1024 * 1024 ≤ (i 0).val ∧ (i 0).val < (i 0).val / 1024 * 1024 + 1024; omega
  | ⟨1, _⟩ => show win0_6.index ⟨(i 0).val / 1024, hN⟩ (1 : Fin 2) * 1024 ≤ (i 1).val ∧ (i 1).val < win0_6.index ⟨(i 0).val / 1024, hN⟩ (1 : Fin 2) * 1024 + 1024; rw [e61]; omega

/-! ## The two output arrays after the call -/

/-- The query output ends holding the scaled query projection of the arrays the call found. -/
theorem final5 (c : Dev nD) :
    (dat0 V c).arrAt 5 cfg0.N = projQ (V c main_arg0) (V c main_v0) (V c main_v2) :=
  (dat0 V c).arrAt_eq_of_cover 5 _ (fun t _ => flushed5_eq V c t) cover5
/-- The key output ends holding the key projection of the arrays the call found. -/
theorem final6 (c : Dev nD) :
    (dat0 V c).arrAt 6 cfg0.N = projK (V c main_arg0) (V c main_v1) (V c main_v3) :=
  (dat0 V c).arrAt_eq_of_cover 6 _ (fun t _ => flushed6_eq V c t) cover6

end Cert.KernelIdeal.Val

end
-- ==== Proof.KiVal1.lean ====
/-
  What the attention call leaves in the score matrix, as one function of the two projections it found.

  Point `t` of the call's sixty-four is tile `(t / 8, t % 8)`: its query block starts at row `1024 (t / 8)` of the query
  array, its key block at row `1024 (t % 8)` of the key array, and the tile it writes back starts at row `1024 (t / 8)`,
  column `1024 (t % 8)`. The body's first condition holds exactly on the tiles with `t / 8 < t % 8`: every entry of such
  a tile has its column above its row, so the −∞ the body fills it with is what the masked scores hold there. On every
  other tile the body's own mask compares the same row and column numbers as the masked scores do. Every entry
  `(r, s)` lies in the tile of point `8 (r / 1024) + s / 1024`, so the write-backs leave the whole matrix at the
  masked scores of the two arrays.
-/
import proofs.«144558_j63737314673218_1_alg».proof.Proof.KiRegion1
import proofs.«144558_j63737314673218_1_alg».proof.Proof.KiPay

set_option maxRecDepth 16384

noncomputable section

open scoped BigOperators

namespace Cert.KernelIdeal.Val

open Cert.KernelIdeal Cert.KernelIdeal.Gen Cert.KernelIdeal.Frame Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2' : (![0, 0] : Fin 2 → Nat) = fun _ => 0 := funext fun a => by fin_cases a <;> rfl

/-- The printed index maps, the grid coordinates and the body's first condition, decided over the grid. -/
theorem idx1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = t.val % 8
    ∧ ((grid1.coords t) 0).val = t.val / 8 ∧ ((grid1.coords t) 1).val = t.val % 8
    ∧ (k1_cond1 (grid1.coords t) = 1#1 ↔ t.val / 8 < t.val % 8) :=
  (by decide +kernel : ∀ t : Fin grid1.N, _)

theorem tile_row_lt (t : Fin cfg1.N) (a : Fin 1024) : 1024 * (t.val / 8) + a.val < 8192 := by
  have ht : t.val < 64 := lt_of_lt_of_eq t.isLt N_1
  have ha := a.isLt
  omega
theorem tile_col_lt (t : Fin cfg1.N) (b : Fin 1024) : 1024 * (t.val % 8) + b.val < 8192 := by
  have hb := b.isLt
  omega

/-! ## The input blocks read at coordinates -/

theorem blk1_0_at (c : Dev nD) (t : Fin cfg1.N) (a e : Fin 1024) :
    iblk1 V c 0 t (ix2 a e) = V c main_v4_0 (ix2 (⟨1024 * (t.val / 8) + a.val, tile_row_lt t a⟩ : Fin 8192) e) := by
  obtain ⟨e00, e01, -⟩ := idx1 t
  show V c main_v4_0 (((cfg1.win 0).blk t).view.emb (ix2 a e)) = _
  refine congrArg (V c main_v4_0) (funext fun ax => Fin.ext ?_)
  match ax with
  | ⟨0, _⟩ => show win1_0.index t (0 : Fin 2) * 1024 + 1 * a.val = 1024 * (t.val / 8) + a.val; omega
  | ⟨1, _⟩ => show win1_0.index t (1 : Fin 2) * 1024 + 1 * e.val = e.val; omega
theorem blk1_1_at (c : Dev nD) (t : Fin cfg1.N) (b e : Fin 1024) :
    iblk1 V c 1 t (ix2 b e) = V c main_v4_1 (ix2 (⟨1024 * (t.val % 8) + b.val, tile_col_lt t b⟩ : Fin 8192) e) := by
  obtain ⟨-, -, e10, e11, -⟩ := idx1 t
  show V c main_v4_1 (((cfg1.win 1).blk t).view.emb (ix2 b e)) = _
  refine congrArg (V c main_v4_1) (funext fun ax => Fin.ext ?_)
  match ax with
  | ⟨0, _⟩ => show win1_1.index t (0 : Fin 2) * 1024 + 1 * b.val = 1024 * (t.val % 8) + b.val; omega
  | ⟨1, _⟩ => show win1_1.index t (1 : Fin 2) * 1024 + 1 * e.val = e.val; omega

/-! ## What a point writes back -/

/-- Point `t` writes back tile `(t / 8, t % 8)` of the masked scores of the two arrays the call found. -/
theorem flushed2_eq (c : Dev nD) (t : Fin cfg1.N) :
    (dat1 V c).flushed 2 t = ((cfg1.win 2).blk t).view.read (Elt Ideal) (scores (V c main_v4_0) (V c main_v4_1)) := by
  show (cfg1.win 2).cut (grid1.coords t) ((dat1 V c).after 2 t) = _
  rw [after1_2]
  unfold out1_2
  obtain ⟨-, -, -, -, e20, e21, g0, g1, hc⟩ := idx1 t
  have ht : t.val < 64 := lt_of_lt_of_eq t.isLt N_1
  funext j
  have hj0 : (j 0).val < 1024 := (j 0).isLt
  have hj1 : (j 1).val < 1024 := (j 1).isLt
  have hL : (cfg1.win 2).xinj (grid1.coords t) j = ix2 (⟨(j 0).val, hj0⟩ : Fin 1024) (⟨(j 1).val, hj1⟩ : Fin 1024) :=
    funext fun ax => Fin.ext (by match ax with | ⟨0, _⟩ => rfl | ⟨1, _⟩ => rfl)
  have hR : ((cfg1.win 2).blk t).view.emb j
      = ix2 (⟨1024 * (t.val / 8) + (j 0).val, tile_row_lt t ⟨(j 0).val, hj0⟩⟩ : Fin 8192)
          (⟨1024 * (t.val % 8) + (j 1).val, tile_col_lt t ⟨(j 1).val, hj1⟩⟩ : Fin 8192) :=
    funext fun ax => Fin.ext (by
      match ax with
      | ⟨0, _⟩ => show win1_2.index t (0 : Fin 2) * 1024 + 1 * (j 0).val = 1024 * (t.val / 8) + (j 0).val; omega
      | ⟨1, _⟩ => show win1_2.index t (1 : Fin 2) * 1024 + 1 * (j 1).val = 1024 * (t.val % 8) + (j 1).val; omega)
  by_cases h1 : k1_cond1 (grid1.coords t) = 1#1
  · rw [if_pos h1, View.canon_unit_zero hz2']
    show k1_pay1 (F := Ideal) ((cfg1.win 2).xinj (grid1.coords t) j)
      = scores (V c main_v4_0) (V c main_v4_1) (((cfg1.win 2).blk t).view.emb j)
    rw [hL, hR, pay_fill_at, scores_at, if_pos]
    show 1024 * (t.val / 8) + (j 0).val < 1024 * (t.val % 8) + (j 1).val
    have := hc.mp h1
    omega
  · rw [if_neg h1, View.canon_unit_zero hz2']
    simp only [View.ld_unit_zero (S := S1024x1024) hz2']
    show k1_pay2 (F := Ideal) (grid1.coords t) (iblk1 V c 0 t) (iblk1 V c 1 t) ((cfg1.win 2).xinj (grid1.coords t) j)
      = scores (V c main_v4_0) (V c main_v4_1) (((cfg1.win 2).blk t).view.emb j)
    rw [hL, hR, pay_tile_at (grid1.coords t) (⟨t.val / 8, by omega⟩ : Fin 8) (⟨t.val % 8, by omega⟩ : Fin 8) g0 g1 (iblk1 V c 0 t) (iblk1 V c 1 t),
      scores_at]
    simp only [blk1_0_at, blk1_1_at]

/-! ## The cover -/

theorem mem_blk2 (t : Fin cfg1.N) (i : S8192x8192.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v5).slice (win1_2.rect t)).set ↔ _
  rw [View.set_slice_whole, Rect.mem_set_unit]
  exact Iff.rfl

/-- Entry `(r, s)` is in the tile of point `8 (r / 1024) + s / 1024`. -/
theorem cover2 (i : S8192x8192.Idx) : ∃ t : Fin cfg1.N, (cfg1.win 2).flush t = true ∧ i ∈ ((cfg1.win 2).blk t).view.set := by
  have hi0 : (i 0).val < 8192 := (i 0).isLt
  have hi1 : (i 1).val < 8192 := (i 1).isLt
  have hN : 8 * ((i 0).val / 1024) + (i 1).val / 1024 < cfg1.N := by rw [show cfg1.N = 64 from N_1]; omega
  obtain ⟨-, -, -, -, e20, e21, -⟩ := idx1 ⟨8 * ((i 0).val / 1024) + (i 1).val / 1024, hN⟩
  refine ⟨⟨8 * ((i 0).val / 1024) + (i 1).val / 1024, hN⟩, flush1_2 _, ?_⟩
  rw [mem_blk2]
  intro a
  match a with
  | ⟨0, _⟩ =>
    show win1_2.index ⟨8 * ((i 0).val / 1024) + (i 1).val / 1024, hN⟩ (0 : Fin 2) * 1024 ≤ (i 0).val
      ∧ (i 0).val < win1_2.index ⟨8 * ((i 0).val / 1024) + (i 1).val / 1024, hN⟩ (0 : Fin 2) * 1024 + 1024
    rw [e20]
    show (8 * ((i 0).val / 1024) + (i 1).val / 1024) / 8 * 1024 ≤ (i 0).val ∧ (i 0).val < (8 * ((i 0).val / 1024) + (i 1).val / 1024) / 8 * 1024 + 1024
    omega
  | ⟨1, _⟩ =>
    show win1_2.index ⟨8 * ((i 0).val / 1024) + (i 1).val / 1024, hN⟩ (1 : Fin 2) * 1024 ≤ (i 1).val
      ∧ (i 1).val < win1_2.index ⟨8 * ((i 0).val / 1024) + (i 1).val / 1024, hN⟩ (1 : Fin 2) * 1024 + 1024
    rw [e21]
    show (8 * ((i 0).val / 1024) + (i 1).val / 1024) % 8 * 1024 ≤ (i 1).val ∧ (i 1).val < (8 * ((i 0).val / 1024) + (i 1).val / 1024) % 8 * 1024 + 1024
    omega

/-! ## The score matrix after the call -/

/-- The output ends holding the masked scores of the query and key arrays the call found. -/
theorem final2 (c : Dev nD) :
    (dat1 V c).arrAt 2 cfg1.N = scores (V c main_v4_0) (V c main_v4_1) :=
  (dat1 V c).arrAt_eq_of_cover 2 _ (fun t _ => flushed2_eq V c t) cover2

end Cert.KernelIdeal.Val

end
-- ==== Proof.KiResult.lean ====
/-
  The idealized kernel's run, read: the score matrix it returns as one function of its five arguments.

  Through the boundaries of the run: the host operations put the transposes of the two weight matrices and the two
  biases as rows where the projection call reads them; that call leaves the scaled query projection and the key
  projection of those; the attention call leaves the masked scores of the two. The arguments end as launched.
-/
import proofs.«144558_j63737314673218_1_alg».proof.Proof.KiRun
import proofs.«144558_j63737314673218_1_alg».proof.Proof.KiVal0
import proofs.«144558_j63737314673218_1_alg».proof.Proof.KiVal1
import Idealize.ShloMosaic.Lib.StableHlo.Run
import Idealize.ShloMosaic.Lib.ValueLayout

set_option maxRecDepth 16384

noncomputable section

open scoped BigOperators

namespace Cert.KernelIdeal.Val

open Cert.KernelIdeal Cert.KernelIdeal.Gen Cert.KernelIdeal.Frame Cert.Spec
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## What the projection call finds -/

/-- The mention matrix, untouched by the host operations. -/
theorem E1_arg0 (c : Dev nD) : E1 m ρ c main_arg0 = m ((c : Thread nD τ).loc main_arg0) :=
  Gen.V1_of m c main_arg0 (by decide)

/-- The query weights transposed. -/
theorem E1_v0 (c : Dev nD) : (E1 m ρ c main_v0 : S1024x1024.Idx → EReal)
    = transpose S1024x1024 [1, 0] (m ((c : Thread nD τ).loc main_arg1)) transposes_S1024x1024_S1024x1024_1_0 := by
  dsimp only [E1, M1, M0, hostOps0]; after_results <;> rfl
/-- The key weights transposed. -/
theorem E1_v1 (c : Dev nD) : (E1 m ρ c main_v1 : S1024x1024.Idx → EReal)
    = transpose S1024x1024 [1, 0] (m ((c : Thread nD τ).loc main_arg3)) transposes_S1024x1024_S1024x1024_1_0 := by
  dsimp only [E1, M1, M0, hostOps0]; after_results <;> rfl
/-- The query bias as one row. -/
theorem E1_v2 (c : Dev nD) : (E1 m ρ c main_v2 : S1x1024.Idx → EReal)
    = shapeCast S1x1024 (m ((c : Thread nD τ).loc main_arg2)) shapeCasts_S1024_S1x1024 := by
  dsimp only [E1, M1, M0, hostOps0]; after_results <;> rfl
/-- The key bias as one row. -/
theorem E1_v3 (c : Dev nD) : (E1 m ρ c main_v3 : S1x1024.Idx → EReal)
    = shapeCast S1x1024 (m ((c : Thread nD τ).loc main_arg4)) shapeCasts_S1024_S1x1024 := by
  dsimp only [E1, M1, M0, hostOps0]; after_results <;> rfl

theorem E1_v0_at (c : Dev nD) (d e : Fin 1024) :
    E1 m ρ c main_v0 (ix2 d e) = m ((c : Thread nD τ).loc main_arg1) (ix2 e d) :=
  (congrFun (E1_v0 m ρ c) (ix2 d e)).trans (transpose_ix2_apply _ _ d e)
theorem E1_v1_at (c : Dev nD) (d e : Fin 1024) :
    E1 m ρ c main_v1 (ix2 d e) = m ((c : Thread nD τ).loc main_arg3) (ix2 e d) :=
  (congrFun (E1_v1 m ρ c) (ix2 d e)).trans (transpose_ix2_apply _ _ d e)
theorem E1_v2_at (c : Dev nD) (e : Fin 1024) :
    E1 m ρ c main_v2 (ix2 (0 : Fin 1) e) = m ((c : Thread nD τ).loc main_arg2) (ix1 e) :=
  (congrFun (E1_v2 m ρ c) (ix2 (0 : Fin 1) e)).trans (shapeCast_a_1a_apply _ _ (0 : Fin 1) e)
theorem E1_v3_at (c : Dev nD) (e : Fin 1024) :
    E1 m ρ c main_v3 (ix2 (0 : Fin 1) e) = m ((c : Thread nD τ).loc main_arg4) (ix1 e) :=
  (congrFun (E1_v3 m ρ c) (ix2 (0 : Fin 1) e)).trans (shapeCast_a_1a_apply _ _ (0 : Fin 1) e)

/-! ## What the attention call finds, and what it leaves -/

/-- The query array at the attention call's entry. -/
theorem E2_q (c : Dev nD) :
    E2 m ρ c main_v4_0 = projQ (m ((c : Thread nD τ).loc main_arg0)) (E1 m ρ c main_v0) (E1 m ρ c main_v2) :=
  ((hF0 m ρ c 5).symm.trans (final5 (E1 m ρ) c)).trans (by rw [E1_arg0])
/-- The key array at the attention call's entry. -/
theorem E2_k (c : Dev nD) :
    E2 m ρ c main_v4_1 = projK (m ((c : Thread nD τ).loc main_arg0)) (E1 m ρ c main_v1) (E1 m ρ c main_v3) :=
  ((hF0 m ρ c 6).symm.trans (final6 (E1 m ρ) c)).trans (by rw [E1_arg0])

/-- The score matrix at the end: the masked scores of the two projections. -/
theorem M3_scores (c : Dev nD) :
    M3 m ρ c (Proc.devRef .tc main_v5)
      = scores (projQ (m ((c : Thread nD τ).loc main_arg0)) (E1 m ρ c main_v0) (E1 m ρ c main_v2))
          (projK (m ((c : Thread nD τ).loc main_arg0)) (E1 m ρ c main_v1) (E1 m ρ c main_v3)) :=
  ((M3_arr m ρ c 2).trans (final2 (E2 m ρ) c)).trans (by rw [E2_q, E2_k])

/-! ## The run, read -/

/-- Every weakly fair execution of the idealized kernel terminates, nothing faulting, with the score matrix at the
    masked scores of the two projections of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5)
        = scores (projQ (m ((c : Thread nD τ).loc main_arg0)) (E1 m ρ c main_v0) (E1 m ρ c main_v2))
            (projK (m ((c : Thread nD τ).loc main_arg0)) (E1 m ρ c main_v1) (E1 m ρ c main_v3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v5 (by decide))).trans (M3_scores m ρ c),
     (h c _ (mem_uc main_arg0 (by decide))).trans (M3_main_arg0 m ρ c),
     (h c _ (mem_uc main_arg1 (by decide))).trans (M3_main_arg1 m ρ c),
     (h c _ (mem_uc main_arg2 (by decide))).trans (M3_main_arg2 m ρ c),
     (h c _ (mem_uc main_arg3 (by decide))).trans (M3_main_arg3 m ρ c),
     (h c _ (mem_uc main_arg4 (by decide))).trans (M3_main_arg4 m ρ c)⟩) (run_all m ρ)

end Cert.KernelIdeal.Val

end
-- ==== Proof.RefValue.lean ====
/-
  The reference's result, read one stage at a time at explicit coordinates, is the masked scores of the scaled query
  projection and the key projection.

  Its stages at `(i, e)`: `x · Wᵀ + b` (a contraction over the feature axis with the weight read transposed, the bias
  broadcast along rows); the division by √1024, which is the product with 2⁻⁵; the key projection read transposed;
  the score `Σₑ q(i, e) · k(j, e)`; and the mask, −∞ exactly where `i < j`, ADDED to the score — on the extended
  reals a sum with −∞ is −∞ whatever the other term, and a sum with 0 is the other term.
-/
import proofs.«144558_j63737314673218_1_alg».proof.Proof.Gen.ReferenceIdeal.Read
import proofs.«144558_j63737314673218_1_alg».proof.Proof.Spec
import Idealize.ShloMosaic.Lib.ValueLayout

noncomputable section

open scoped BigOperators

namespace Cert.ReferenceIdeal.RefValue

open Cert.ReferenceIdeal Cert.ReferenceIdeal.Gen Cert.ReferenceIdeal.Read Cert.Spec
open Idealize.ShloMosaic Idealize.ShloMosaic.ValueIdx

variable (x0 : (⟨S8192x1024, .f32⟩ : BufTy).Contents (Elt Ideal)) (x1 : (⟨S1024x1024, .f32⟩ : BufTy).Contents (Elt Ideal))
  (x2 : (⟨S1024, .f32⟩ : BufTy).Contents (Elt Ideal)) (x3 : (⟨S1024x1024, .f32⟩ : BufTy).Contents (Elt Ideal))
  (x4 : (⟨S1024, .f32⟩ : BufTy).Contents (Elt Ideal))

/-- The query pre-activation `x · Wqᵀ + bq` at `(i, e)`. -/
theorem v4_at (i : Fin 8192) (e : Fin 1024) :
    val_main_v4 (F := Ideal) x0 x1 x2 (ix2 i e) = (∑ d : Fin 1024, x0 (ix2 i d) * x1 (ix2 e d)) + x2 (ix1 e) := by
  rw [val_main_v4_apply, val_main_v1_apply, val_main_v3_apply, val_main_v2_apply]
  have e1 : ∀ d : Fin 1024, lidx_main_v1 (ix2 i e) d = ix2 i d := fun d => funext fun a => Fin.ext (by
    match a with | ⟨0, _⟩ => rfl | ⟨1, _⟩ => rfl)
  have e2 : ∀ d : Fin 1024, idx_main_v0 (ridx_main_v1 (ix2 i e) d) = ix2 e d := fun d => funext fun a => Fin.ext (by
    match a with | ⟨0, _⟩ => rfl | ⟨1, _⟩ => rfl)
  have e3 : idx_main_v2 (idx_main_v3 (ix2 i e)) = ix1 e := funext fun a => Fin.ext (by
    match a with | ⟨0, _⟩ => rfl)
  simp only [val_main_v0_apply, e1, e2, e3]
  rfl

/-- The scaled query projection at `(i, e)`: the division by √1024 is the product with 2⁻⁵. -/
theorem v7_at (i : Fin 8192) (e : Fin 1024) :
    val_main_v7 (F := Ideal) x0 x1 x2 (ix2 i e)
      = ((∑ d : Fin 1024, x0 (ix2 i d) * x1 (ix2 e d)) + x2 (ix1 e)) * Ideal.ofBits .f32 0x3D000000#32 := by
  rw [val_main_v7_apply, v4_at, val_main_v6_apply, val_main_v5_apply, val_main_cst_apply]
  exact div_sqrt_1024 _

/-- The key projection `x · Wkᵀ + bk` at `(j, e)`. -/
theorem v12_at (j : Fin 8192) (e : Fin 1024) :
    val_main_v12 (F := Ideal) x0 x3 x4 (ix2 j e) = (∑ d : Fin 1024, x0 (ix2 j d) * x3 (ix2 e d)) + x4 (ix1 e) := by
  rw [val_main_v12_apply, val_main_v9_apply, val_main_v11_apply, val_main_v10_apply]
  have e1 : ∀ d : Fin 1024, lidx_main_v9 (ix2 j e) d = ix2 j d := fun d => funext fun a => Fin.ext (by
    match a with | ⟨0, _⟩ => rfl | ⟨1, _⟩ => rfl)
  have e2 : ∀ d : Fin 1024, idx_main_v8 (ridx_main_v9 (ix2 j e) d) = ix2 e d := fun d => funext fun a => Fin.ext (by
    match a with | ⟨0, _⟩ => rfl | ⟨1, _⟩ => rfl)
  have e3 : idx_main_v10 (idx_main_v11 (ix2 j e)) = ix1 e := funext fun a => Fin.ext (by
    match a with | ⟨0, _⟩ => rfl)
  simp only [val_main_v8_apply, e1, e2, e3]
  rfl

/-- The raw score at `(i, j)`: query row `i` against key row `j`. -/
theorem v14_at (i j : Fin 8192) :
    val_main_v14 (F := Ideal) x0 x1 x2 x3 x4 (ix2 i j)
      = ∑ e : Fin 1024, val_main_v7 (F := Ideal) x0 x1 x2 (ix2 i e) * val_main_v12 (F := Ideal) x0 x3 x4 (ix2 j e) := by
  rw [val_main_v14_apply]
  refine Finset.sum_congr rfl fun e _ => ?_
  rw [val_main_v13_apply]
  have e1 : lidx_main_v14 (ix2 i j) e = ix2 i e := funext fun a => Fin.ext (by
    match a with | ⟨0, _⟩ => rfl | ⟨1, _⟩ => rfl)
  have e2 : idx_main_v13 (ridx_main_v14 (ix2 i j) e) = ix2 j e := funext fun a => Fin.ext (by
    match a with | ⟨0, _⟩ => rfl | ⟨1, _⟩ => rfl)
  rw [e1, e2]

/-- The mask bit at `(i, j)`: set exactly where the column exceeds the row. -/
theorem v16_at (i j : Fin 8192) :
    val_main_v16 (F := Ideal) (ix2 i j) = if i.val < j.val then 1#1 else 0#1 := by
  have hi := i.isLt; have hj := j.isLt
  rw [val_main_v16_apply, val_main_call0_v4_apply, val_main_call0_v2_apply, val_main_call0_v0_apply, val_main_call0_v1_apply,
    val_main_call0_c_apply, val_main_call0_v3_apply, val_main_call0_v5_apply, val_main_call0_c_0_apply, val_main_v15_apply,
    val_main_c_apply]
  show Scalar.select (IntOp.cmpi .sge (IntOp.addi (BitVec.ofNat 32 i.val) 0#32) (BitVec.ofNat 32 j.val)) 0#1 1#1 = _
  rw [sge_words _ _ (by rw [iota_word]; omega) (by rw [iota_word']; omega), iota_word, iota_word']
  by_cases h : i.val < j.val
  · rw [if_neg (by omega), if_pos h]; exact select_zero _ _
  · rw [if_pos (by omega), if_neg h]; exact select_one _ _

/-- The additive mask at `(i, j)`: −∞ where the column exceeds the row, 0 elsewhere. -/
theorem v17_at (i j : Fin 8192) :
    val_main_v17 (F := Ideal) (ix2 i j) = if i.val < j.val then (⊥ : EReal) else 0 := by
  rw [val_main_v17_apply, v16_at, val_main_call1_v0_apply, val_main_cst_0_apply, val_main_call1_v1_apply, val_main_cst_1_apply]
  by_cases h : i.val < j.val
  · rw [if_pos h, if_pos h]; exact (select_one _ _).trans ofBits_neg_inf
  · rw [if_neg h, if_neg h]; exact (select_zero _ _).trans Ideal.ofBits_zero_f32

/-- THE REFERENCE'S RESULT is the masked scores of the two projections, for any transposed weights `wqT`, `wkT` and bias
    rows `bq2`, `bk2` that read as the arguments do. -/
theorem result_eq (wqT wkT : SW.Idx → EReal) (bq2 bk2 : SR.Idx → EReal)
    (hq : ∀ d e : Fin 1024, wqT (ix2 d e) = x1 (ix2 e d)) (hbq : ∀ e : Fin 1024, bq2 (ix2 (0 : Fin 1) e) = x2 (ix1 e))
    (hk : ∀ d e : Fin 1024, wkT (ix2 d e) = x3 (ix2 e d)) (hbk : ∀ e : Fin 1024, bk2 (ix2 (0 : Fin 1) e) = x4 (ix1 e)) :
    val_main_v18 (F := Ideal) x0 x1 x2 x3 x4 = scores (projQ x0 wqT bq2) (projK x0 wkT bk2) := by
  funext p
  obtain ⟨i, j, rfl⟩ : ∃ (i : Fin 8192) (j : Fin 8192), p = ix2 i j := ⟨p 0, p 1, eq_ix2 p⟩
  rw [val_main_v18_apply, v14_at, v17_at, scores_at]
  by_cases h : i.val < j.val
  · rw [if_pos h, if_pos h]; exact EReal.add_bot _
  · rw [if_neg h, if_neg h]
    refine (add_zero _).trans (Finset.sum_congr rfl fun e _ => ?_)
    rw [v7_at, v12_at, projQ_at, projK_at]
    unfold lin
    simp only [hq, hbq, hk, hbk]

end Cert.ReferenceIdeal.RefValue

end
-- ==== Proof.lean ====
/-
  The certificate of a causal attention-logits kernel against its jnp reference, over the extended reals.

  Both programs take a mention matrix `x` (8192 × 1024), query and key weight matrices (1024 × 1024) and biases, and
  return the 8192 × 8192 matrix of logits `q · kᵀ` of  `q = (x · Wqᵀ + bq) / √1024`  and  `k = x · Wkᵀ + bk`,  with −∞
  strictly above the diagonal. The kernel computes it in two tiled calls — the two projections row block by row
  block, then the logits tile by tile, a tile strictly above the diagonal filled with −∞ without being computed —;
  the reference in one stretch of whole-array operations, adding a −∞ / 0 mask at the end.

  * The three frames: each program runs to the end, faults nowhere and leaves its five argument arrays as launched.
    For the kernel (as printed, and idealized) this is the run through its host operations and its two calls with
    every buffer's contents followed from boundary to boundary; for the reference it is its run with the result
    dropped.
  * The idealization rewrote nothing, so there is nothing to preserve.
  * At the ideal instance both programs end with the same matrix. Where they differ in spelling they agree as
    functions on the extended reals with no finiteness assumed: the kernel's product with the literal 2⁻⁵ is the
    reference's division by √1024 = 32; a matrix product into a zero accumulator, tile by tile, is the whole
    contraction read at the tile's entries; selecting −∞ where the column exceeds the row is adding −∞ there and 0
    elsewhere, a sum with −∞ being −∞ whatever the other term.
-/
import proofs.«144558_j63737314673218_1_alg».proof.Defs
import proofs.«144558_j63737314673218_1_alg».proof.Proof.Gen.Kernel
import proofs.«144558_j63737314673218_1_alg».proof.Proof.Gen.KernelIdeal
import proofs.«144558_j63737314673218_1_alg».proof.Proof.Gen.ReferenceIdeal
import proofs.«144558_j63737314673218_1_alg».proof.Proof.Gen.ReferenceIdeal.Read
import proofs.«144558_j63737314673218_1_alg».proof.Proof.Gen.Pre_finite_inputs
import proofs.«144558_j63737314673218_1_alg».proof.Proof.KRun
import proofs.«144558_j63737314673218_1_alg».proof.Proof.KiResult
import proofs.«144558_j63737314673218_1_alg».proof.Proof.RefValue
import Idealize.ShloMosaic.Adequacy
import Idealize.ShloMosaic.Init

noncomputable section

namespace Cert.Proof

open Idealize.ShloMosaic Idealize.SL.Sem

/-- The kernel as printed runs, faults nowhere and leaves its arguments as launched. -/
theorem frame_k : Cert.frame_Kernel := fun m ρ _ => Cert.Kernel.Frame.frame_all (F := Bits) m ρ

/-- So does its idealization. -/
theorem frame_ki : Cert.frame_KernelIdeal := fun m ρ _ => Cert.KernelIdeal.Frame.frame_all (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the idealized kernel ends with the masked scores of the two projections
    of its arguments, and the reference's result is that same function of the same arguments. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2.1, (hagree c).2.2.1, (hagree c).2.2.2.1, (hagree c).2.2.2.2]
  exact Cert.ReferenceIdeal.RefValue.result_eq _ _ _ _ _ _ _ _ _
    (Cert.KernelIdeal.Val.E1_v0_at m ρ c) (Cert.KernelIdeal.Val.E1_v2_at m ρ c)
    (Cert.KernelIdeal.Val.E1_v1_at m ρ c) (Cert.KernelIdeal.Val.E1_v3_at m ρ c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
